-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S8x1024x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel

variable [Facts]

def fn {F : FTy → Type} [FloatOps F] (main_arg0 : FVec F S128x1024 .f32) (main_arg1 : FVec F S128x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  main_v8
-- ==== Kernel.lean ====
abbrev S128x1024 : Shape := ⟨2, ![128, 1024]⟩
abbrev S1024x128 : Shape := ⟨2, ![1024, 128]⟩
abbrev S1x128 : Shape := ⟨2, ![1, 128]⟩
abbrev S8x128 : Shape := ⟨2, ![8, 128]⟩
abbrev S8x1x128 : Shape := ⟨3, ![8, 1, 128]⟩
abbrev S1x1024x128 : Shape := ⟨3, ![1, 1024, 128]⟩
abbrev S8x1024x128 : Shape := ⟨3, ![8, 1024, 128]⟩
abbrev S128 : Shape := ⟨1, ![128]⟩
abbrev S_ : Shape := ⟨0, ![]⟩

abbrev nBuf : Space → Nat
  | .hbm => 15
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x128, .f32⟩
  | .hbm, ⟨3, _⟩ => ⟨S1024x128, .f32⟩
  | .hbm, ⟨4, _⟩ => ⟨S1x128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S1024x128, .f32⟩
  | .local _ .vmem, ⟨5, _⟩ => ⟨S1024x128, .f32⟩
  | .local _ .vmem, ⟨6, _⟩ => ⟨S1x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  transposes_S128x1024_S1024x128_1_0 : S128x1024.Transposes [1, 0] S1024x128
  inb_S1x128_S1x128_0_0 : ∀ a, (![0, 0] : Fin 2 → Nat) a + S1x128.size a ≤ S1x128.size a
  h_S1x128 : 0 < S1x128.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S8x128_S8x1x128 : S8x128.ShapeCasts S8x1x128
  shapeCasts_S1024x128_S1x1024x128 : S1024x128.ShapeCasts S1x1024x128
  broadcasts_S8x1x128_S8x1024x128 : S8x1x128.Broadcasts S8x1024x128
  broadcasts_S1x1024x128_S8x1024x128 : S1x1024x128.Broadcasts S8x1024x128
  reduces_S8x1024x128_S1024x128 : S8x1024x128.Reduces [0] S1024x128
  reduces_S1024x128_S128 : S1024x128.Reduces [0] S128
  shapeCasts_S128_S1x128 : S128.ShapeCasts S1x128
  shapeCasts_S1x128_S1x128 : S1x128.ShapeCasts S1x128
  shapeCasts_S1x128_S128 : S1x128.ShapeCasts S128
  bcast_S_S128 : S_.BroadcastsInDim S128 (![] : Fin 0 → Fin S128.rank)
  reducesTo_S128_S_d0 : S128.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S1024x128.size a
  hwx0_0 : ∀ i : grid0.Coords, EltTy.bits .f32 = 32 ∨ (Rect.block (s := S1024x128) S8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S1024x128.size a
  hwx0_1 : ∀ i : grid0.Coords, EltTy.bits .f32 = 32 ∨ (Rect.block (s := S1024x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)

variable [Facts₀]

abbrev win0_0 : Pipeline.Window sig grid0 :=
  Pipeline.Window.ofSpec (Memref.whole main_v0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x1024 : Shape := ⟨2, ![128, 1024]⟩
abbrev S1024x128 : Shape := ⟨2, ![1024, 128]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S_ : Shape := ⟨0, ![]⟩
abbrev S128 : Shape := ⟨1, ![128]⟩

abbrev nBuf : Space → Nat
  | .hbm => 28
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x128, .f32⟩
  | .hbm, ⟨3, _⟩ => ⟨S1024x128, .f32⟩
  | .hbm, ⟨4, _⟩ => ⟨S1024x1x128, .f32⟩
  | .hbm, ⟨5, _⟩ => ⟨S1x1024x128, .f32⟩
  | .hbm, ⟨6, _⟩ => ⟨S1024x1024x128, .f32⟩
  | .hbm, ⟨7, _⟩ => ⟨S1024x1024x128, .f32⟩
  | .hbm, ⟨8, _⟩ => ⟨S1024x1024x128, .f32⟩
  | .hbm, ⟨9, _⟩ => ⟨S1024x1x128, .f32⟩
  | .hbm, ⟨10, _⟩ => ⟨S1x1024x128, .f32⟩
  | .hbm, ⟨11, _⟩ => ⟨S1024x1024x128, .f32⟩
  | .hbm, ⟨12, _⟩ => ⟨S1024x1024x128, .f32⟩
  | .hbm, ⟨13, _⟩ => ⟨S1024x1024x128, .f32⟩
  | .hbm, ⟨14, _⟩ => ⟨S1024x1024x128, .f32⟩
  | .hbm, ⟨15, _⟩ => ⟨S1024x1024x128, .f32⟩
  | .hbm, ⟨16, _⟩ => ⟨S1024x1024x128, .f32⟩
  | .hbm, ⟨17, _⟩ => ⟨S_, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  transposes_S128x1024_S1024x128_1_0 : S128x1024.Transposes [1, 0] S1024x128
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  reducesTo_S1024x1024x128_S128_d0_1 : S1024x1024x128.ReducesTo [0, 1] S128
  h_S_ : 0 < S_.numel
  bcast_S_S128 : S_.BroadcastsInDim S128 (![] : Fin 0 → Fin S128.rank)
  reducesTo_S128_S_d0 : S128.ReducesTo [0] S_

variable [Facts₀]

class Facts : Prop extends Facts₀ where

variable [Facts]
-- ==== Proof.BitsRun.Setup.lean ====
/-
  The kernel region of @main and what surrounds it. @main transposes the two arguments (P = arg0 transposed, L = arg1
  transposed, 1024 rows by 128 columns each), runs the region on a grid of 128 points, and finishes with ten host lines.
  The region has five windows: an 8-row tile of P and one of L that move with the grid point, the whole of P and the
  whole of L fetched once, and a 1-by-128 output row written back after the last point. Two windows read P and two
  read L: each pair shares its array.
  Here: the buffers' contents when the region is entered, @main as lines / region / lines, each window's block read
  off those contents, the fact that an input's buffer holds its block at every point whether fetched there or not, and
  the body's one branch condition ("this is grid point 0") decided over the grid.
-/
import proofs.«170882_j29918742184749_2_alg».proof.Proof.Gen.Kernel.Launch
import proofs.«170882_j29918742184749_2_alg».proof.Proof.Gen.Kernel.Skeleton
import proofs.«170882_j29918742184749_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tau

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: the launch contents after the two transposes. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two transposes, the region, and the ten later lines: it reduces to the region continued by the
    later lines, entered at the contents after the transposes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the block
    index has not moved), for any proof data whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the block
    index has not moved), for any proof data whose array is the entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the block
    index has not moved), for any proof data whose array is the entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, the block
    index has not moved), for any proof data whose array is the entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one branch, from the grid coordinates: "the first coordinate is 0". -/
abbrev cond0_0 (i : grid0.Coords) : Prop := (Scalar.cmpi .ne (Scalar.extui (Scalar.cmpi .eq (BitVec.ofNat 32 (i 0).val) 0#32)) 0#32) = 1#1
/-- It holds at the first point only, decided over the 128 points. -/
theorem hcond0_0 : ∀ t : Fin cfg0.N, cond0_0 (grid0.coords t) ↔ t.val % 128 = 0 :=
  (by decide +kernel : ∀ t : Fin grid0.N, cond0_0 (grid0.coords t) ↔ t.val % 128 = 0)

/-! ## The staging memrefs at a point -/

/-- One staging buffer of the output window, through which its contents are stated. -/
abbrev VO0_4 : View sig .tc .vmem S1x128 .f32 := (Memref.whole cc0_stg4_0 : Memref sig .tc .vmem S1x128 .f32).view
/-- Each window's current staging memref at point `t`, as the pipeline passes it, and its wholeness. -/
abbrev ms0_0 (t : Fin cfg0.N) : Memref sig .tc .vmem S8x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)

end Cert.Kernel.Tau

end
-- ==== Proof.BitsRun.RunFirst.lean ====
/-
  The kernel body run at the first grid point, on any whole staging buffers: the branch is taken, so the output row is
  first overwritten with zeros and then read back, added to this tile's partial sums and stored again. The four input
  buffers are only read; the output buffer may hold anything on entry.
-/
import proofs.«170882_j29918742184749_2_alg».proof.Proof.BitsRun.Setup

set_option maxRecDepth 16384

noncomputable section

namespace Cert.Kernel.Tau

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output row's buffer at the first point, as the list of stored pieces (last
    first), with the proof that from whole staging buffers — the inputs at `x0 … x3`, the output at anything — the body
    runs to its continuation holding the inputs as they were and the output with those pieces written. -/
noncomputable def runFirst (c : Dev nD) (i : grid0.Coords) (arg1 : Memref sig .tc .vmem S8x128 .f32) (harg1 : arg1.IsWhole) (arg2 : Memref sig .tc .vmem S8x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (hc0 : cond0_0 i)
    (x0 x1 : Vec F S8x128 .f32) (x2 x3 : Vec F S1024x128 .f32) :
    { L4 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__tau_kernel i arg1 harg1 arg2 harg2 arg3 harg3 arg4 harg4 arg5 harg5) K } := by
  refine ⟨?_, fun E K => ?run⟩
  case run =>
    simp only [cc0__tau_kernel_eq_skeleton]; unfold cc0__tau_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Tau

end
-- ==== Proof.BitsRun.RunLater.lean ====
/-
  The kernel body run at a later grid point, on any whole staging buffers: the branch is not taken, so the output row
  the point before left (`xo4`) is read back, added to this tile's partial sums and stored again.
-/
import proofs.«170882_j29918742184749_2_alg».proof.Proof.BitsRun.RunFirst

set_option maxRecDepth 16384

noncomputable section

namespace Cert.Kernel.Tau

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output row's buffer at a later point, as the list of stored pieces, with the
    proof that from whole staging buffers — the inputs at `x0 … x3`, the output at its running contents `xo4` — the body
    runs to its continuation holding the inputs as they were and the output with those pieces written. -/
noncomputable def runLater (c : Dev nD) (i : grid0.Coords) (arg1 : Memref sig .tc .vmem S8x128 .f32) (harg1 : arg1.IsWhole) (arg2 : Memref sig .tc .vmem S8x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (hc0 : ¬cond0_0 i)
    (x0 x1 : Vec F S8x128 .f32) (x2 x3 : Vec F S1024x128 .f32) (xo4 : Vec F S1x128 .f32) :
    { L4 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__tau_kernel i arg1 harg1 arg2 harg2 arg3 harg3 arg4 harg4 arg5 harg5) K } := by
  refine ⟨?_, fun E K => ?run⟩
  case run =>
    simp only [cc0__tau_kernel_eq_skeleton]; unfold cc0__tau_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1
    obtain rfl := harg3.eq_unread hf2; obtain rfl := harg4.eq_unread hf3
    obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Tau

end
-- ==== Proof.BitsRun.Body.lean ====
/-
  The proof data of the kernel region and the body's obligation at every grid point.
  The output row's staging buffer is an accumulator: the first point overwrites it with zeros and adds the first tile's
  partial sums; every later point adds its tile's partial sums to what the point before left; the buffer is written back
  to the array once, after the last point. `outsAt` is that recursion. The four input windows' buffers hold their
  blocks at every point. The two windows on P hold a half share of P's array each, likewise the two on L; the output
  window holds its array whole.
-/
import proofs.«170882_j29918742184749_2_alg».proof.Proof.BitsRun.RunLater

set_option maxRecDepth 16384

noncomputable section

namespace Cert.Kernel.Tau

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The first point's stored pieces tile the output row's block, so they cover it. -/
theorem cover_first (c : Dev nD) (i : grid0.Coords) (arg1 : Memref sig .tc .vmem S8x128 .f32) (harg1 : arg1.IsWhole) (arg2 : Memref sig .tc .vmem S8x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (hc0 : cond0_0 i)
    (x0 x1 : Vec F S8x128 .f32) (x2 x3 : Vec F S1024x128 .f32) (y : S1x128.Idx) :
    ∃ pc ∈ (runFirst c i arg1 harg1 arg2 harg2 arg3 harg3 arg4 harg4 arg5 harg5 hc0 x0 x1 x2 x3).1, y ∈ pc.1.set :=
  View.cover_of_tiledL (runFirst c i arg1 harg1 arg2 harg2 arg3 harg3 arg4 harg4 arg5 harg5 hc0 x0 x1 x2 x3).1 S1x128.size (by sl_kernel_rfl) y

/-- What the first point leaves in the output row's buffer: its pieces read back. -/
def outFirst (c : Dev nD) (i : grid0.Coords) (arg1 : Memref sig .tc .vmem S8x128 .f32) (harg1 : arg1.IsWhole) (arg2 : Memref sig .tc .vmem S8x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (hc0 : cond0_0 i)
    (x0 x1 : Vec F S8x128 .f32) (x2 x3 : Vec F S1024x128 .f32) : Vec F S1x128 .f32 :=
  VO0_4.read (Elt F) (VO0_4.writes (Elt F) VO0_4.junk (runFirst c i arg1 harg1 arg2 harg2 arg3 harg3 arg4 harg4 arg5 harg5 hc0 x0 x1 x2 x3).1)

/-- A later point's stored pieces tile the output row's block, so they cover it. -/
theorem cover_later (c : Dev nD) (i : grid0.Coords) (arg1 : Memref sig .tc .vmem S8x128 .f32) (harg1 : arg1.IsWhole) (arg2 : Memref sig .tc .vmem S8x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (hc0 : ¬cond0_0 i)
    (x0 x1 : Vec F S8x128 .f32) (x2 x3 : Vec F S1024x128 .f32) (xo4 : Vec F S1x128 .f32) (y : S1x128.Idx) :
    ∃ pc ∈ (runLater c i arg1 harg1 arg2 harg2 arg3 harg3 arg4 harg4 arg5 harg5 hc0 x0 x1 x2 x3 xo4).1, y ∈ pc.1.set :=
  View.cover_of_tiledL (runLater c i arg1 harg1 arg2 harg2 arg3 harg3 arg4 harg4 arg5 harg5 hc0 x0 x1 x2 x3 xo4).1 S1x128.size (by sl_kernel_rfl) y

/-- What a later point leaves in the output row's buffer: its pieces read back. -/
def outLater (c : Dev nD) (i : grid0.Coords) (arg1 : Memref sig .tc .vmem S8x128 .f32) (harg1 : arg1.IsWhole) (arg2 : Memref sig .tc .vmem S8x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (hc0 : ¬cond0_0 i)
    (x0 x1 : Vec F S8x128 .f32) (x2 x3 : Vec F S1024x128 .f32) (xo4 : Vec F S1x128 .f32) : Vec F S1x128 .f32 :=
  VO0_4.read (Elt F) (VO0_4.writes (Elt F) VO0_4.junk (runLater c i arg1 harg1 arg2 harg2 arg3 harg3 arg4 harg4 arg5 harg5 hc0 x0 x1 x2 x3 xo4).1)

/-! ## What the output row holds after each point -/

/-- THE ACCUMULATION: what the output row's staging buffer holds after the body at position `n`. -/
def outsAt (c : Dev nD) : (n : ℕ) → n < cfg0.N → Vec F S1x128 .f32
  | 0, hn => outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 128 = 0 then
      outFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn))

/-- `outsAt` at the first point. -/
theorem outsAt_first (c : Dev nD) (t : Fin cfg0.N) (h0 : t.val % 128 = 0) :
    outsAt m c t.val t.isLt = outFirst c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- `outsAt` at a later point: over what the point before left. -/
theorem outsAt_later (c : Dev nD) (t : Fin cfg0.N) (h0 : ¬t.val % 128 = 0) :
    outsAt m c t.val t.isLt = outLater c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data of the pipeline on core `c`: the arrays as the region finds them; after the body at point `t` each
    input's buffer at its block and the output's at `outsAt`; the invariant is the scoped rest and the generator
    register; nothing owed; P's and L's arrays held by halves, one half per window on them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt)
  Φ _ := Pipeline.ΦA spec0 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a later point the output row's buffer holds what the body left at the point before: the buffer is written back
    only after the last point. -/
theorem before0_4_later (c : Dev nD) (t : Fin cfg0.N) (h0 : ¬t.val % 128 = 0) (d) :
    (dats m 0 c).before 4 t d = (outsAt m c (t.val - 1) (Nat.lt_of_le_of_lt (Nat.sub_le _ _) t.isLt)) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the point is the first or a later one; at a later one
    the output's buffer holds what the point before left; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 128 := lt_of_lt_of_eq t.isLt (show cfg0.N = 128 from N_0)
  by_cases h0 : t.val % 128 = 0
  · rw [outsAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_first c _ _ _ _ _ _ _ _ _ _ _ _ _ _ _ _)
  · rw [outsAt_later m c t h0]
    simp only [before0_4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_later c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Tau

end
-- ==== Proof.BitsRun.Launch.lean ====
/-
  The region launched. Five windows sit on three buffers: P (its 8-row tile and its whole), L (likewise) and the output
  row. On entry each of P and L, held whole, is dealt to its two windows by halves; at the exit the halves are joined
  again (an input array is never written, so both halves hold the entry contents) and the ten later host lines run on
  the buffers as the region left them: everything as on entry except the output row's array, which holds what the
  write-back after the last point put there. The conclusion names what every buffer that bypasses the region holds at
  the end: the later lines' result from those exit contents.
-/
import proofs.«170882_j29918742184749_2_alg».proof.Proof.BitsRun.Body

set_option maxRecDepth 16384

noncomputable section

namespace Cert.Kernel.Tau

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs unscopedRest unscopedRestP restRefs restRefsP ucRefs Prefetch chain)

/-! ## Three buffers behind five windows -/

/-- The windows' arrays are three buffers — P, L and the output row —, here named by the first window on each. -/
theorem bigSep_arrs {M : Type} [URA M] (Φ : Ref sig .tc → sProp M) :
    bigSep (Finset.univ.image (Pipeline.arrRef spec0)) Φ
      = iprop(Φ (Pipeline.arrRef spec0 0) ∗ Φ (Pipeline.arrRef spec0 1) ∗ Φ (Pipeline.arrRef spec0 4)) :=
  bigSep_eq_bigSepL_of_eq [Pipeline.arrRef spec0 0, Pipeline.arrRef spec0 1, Pipeline.arrRef spec0 4] (by decide) (by decide) Φ

/-- Window 2 reads the buffer window 0 reads (P), window 3 the one window 1 reads (L). -/
theorem arr_2 : Pipeline.arrRef spec0 2 = Pipeline.arrRef spec0 0 := by decide
theorem arr_3 : Pipeline.arrRef spec0 3 = Pipeline.arrRef spec0 1 := by decide

section Arrays

variable (c : Dev nD) (G : (b : Ref sig .tc) → Buf (Elt F) ((c : Thread nD τ).loc b))
  (Fw : (w : Fin cfg0.W) → Buf (Elt F) ((cfg0.win w).arr.view.loc (c : Thread nD τ)))
  (hF : ∀ w, Fw w = G (Pipeline.arrRef spec0 w))

/-- The shares: the tiles' windows hold the left halves, the whole-array windows the right halves, the output all. -/
theorem share_0 : (dats m 0 c).share 0 = fullShare.left := by unfold Dat.share; rw [if_neg (by decide)]; dsimp only [dats]
theorem share_1 : (dats m 0 c).share 1 = fullShare.left := by unfold Dat.share; rw [if_neg (by decide)]; dsimp only [dats]
theorem share_2 : (dats m 0 c).share 2 = fullShare.right := by unfold Dat.share; rw [if_neg (by decide)]; dsimp only [dats]
theorem share_3 : (dats m 0 c).share 3 = fullShare.right := by unfold Dat.share; rw [if_neg (by decide)]; dsimp only [dats]
theorem share_4 : (dats m 0 c).share 4 = fullShare := by unfold Dat.share; rw [if_pos (by decide)]

include hF in
/-- One window's array, held at share `q` at `Fw w`, is the buffer behind it at `G`. -/
theorem win_pt (w : Fin cfg0.W) (q : PosShare TreeShare) :
    ((cfg0.win w).arr.view.loc (c : Thread nD τ) ↦[(cfg0.win w).arr.view.set]{q} Fw w : sProp 𝕄)
      = (((c : Thread nD τ).loc (Pipeline.arrRef spec0 w)) ↦{q} G (Pipeline.arrRef spec0 w)) := by
  rw [(arr_whole0 w).set_eq_univ, hF w]

include hF in
/-- The five windows' arrays, with the shares spelled out and each window's array named by its buffer. -/
theorem arrays_eq5 : ((dats m 0 c).arrays Fw : sProp 𝕄)
    = iprop((((c : Thread nD τ).loc (Pipeline.arrRef spec0 0)) ↦{fullShare.left} G (Pipeline.arrRef spec0 0))
        ∗ (((c : Thread nD τ).loc (Pipeline.arrRef spec0 1)) ↦{fullShare.left} G (Pipeline.arrRef spec0 1))
        ∗ (((c : Thread nD τ).loc (Pipeline.arrRef spec0 0)) ↦{fullShare.right} G (Pipeline.arrRef spec0 0))
        ∗ (((c : Thread nD τ).loc (Pipeline.arrRef spec0 1)) ↦{fullShare.right} G (Pipeline.arrRef spec0 1))
        ∗ (((c : Thread nD τ).loc (Pipeline.arrRef spec0 4)) ↦{fullShare} G (Pipeline.arrRef spec0 4))) := by
  unfold Dat.arrays
  rw [bigSep_W0, share_0, share_1, share_2, share_3, share_4, win_pt c G Fw hF 0, win_pt c G Fw hF 1, win_pt c G Fw hF 2,
    win_pt c G Fw hF 3, win_pt c G Fw hF 4, arr_2, arr_3]

include hF in
/-- The three buffers whole at `G` are the five windows' arrays: P and L split into halves. -/
theorem arrays_of_bufs : (arrBufs spec0 c G : sProp 𝕄) ⊢ (dats m 0 c).arrays Fw := by
  rw [arrays_eq5 m c G Fw hF]
  unfold Pipeline.arrBufs
  rw [bigSep_arrs]
  iintro ⟨H0, H1, H2⟩
  ihave H0' := (pointsTo_share (PosShare.mem_left_op_right fullShare)).1 $$ H0
  ihave H1' := (pointsTo_share (PosShare.mem_left_op_right fullShare)).1 $$ H1
  icases H0' with ⟨H0l, H0r⟩
  icases H1' with ⟨H1l, H1r⟩
  isplitl [H0l]; · iexact H0l
  isplitl [H1l]; · iexact H1l
  isplitl [H0r]; · iexact H0r
  isplitl [H1r]; · iexact H1r
  iexact H2

include hF in
/-- And back: the halves of P and of L joined. -/
theorem bufs_of_arrays : (dats m 0 c).arrays Fw ⊢ (arrBufs spec0 c G : sProp 𝕄) := by
  rw [arrays_eq5 m c G Fw hF]
  unfold Pipeline.arrBufs
  rw [bigSep_arrs]
  iintro ⟨H0l, H1l, H0r, H1r, H2⟩
  isplitl [H0l H0r]
  · iapply (pointsTo_share (PosShare.mem_left_op_right fullShare)).2
    isplitl [H0l] <;> iassumption
  isplitl [H1l H1r]
  · iapply (pointsTo_share (PosShare.mem_left_op_right fullShare)).2
    isplitl [H1l] <;> iassumption
  iexact H2

end Arrays

/-! ## The contents when the region is left, and after the later lines -/

open Classical in
/-- A core's buffer contents when the region is left: as on entry, except the output row's array, which holds what the
    write-back after the last point put there. -/
def Wx (c : Dev nD) : Valuation τ sig (Elt F) :=
  Function.update (V0 m c) (Proc.devRef .tc main_v2) ((dats m 0 c).arrAt 4 cfg0.N)

/-- The contents after the ten later lines. -/
def Wfin (c : Dev nD) : Valuation τ sig (Elt F) := StableHlo.after (List.flatten [hostOps1]) (Wx m c)

theorem Wx_out (c : Dev nD) : Wx m c (Proc.devRef .tc main_v2) = (dats m 0 c).arrAt 4 cfg0.N := by
  unfold Wx; exact Function.update_self ..

theorem Wx_of_ne (c : Dev nD) (b : Ref sig .tc) (hb : b ≠ main_v2) : Wx m c (Proc.devRef .tc b) = V m c b := by
  unfold Wx; exact Function.update_of_ne (fun e => hb (Proc.devRef_injective _ e)) _ _

/-- Each window's array at the exit is the exit contents of the buffer behind it: an input array is never written. -/
theorem Wx_arr (c : Dev nD) : ∀ w : Fin cfg0.W, (dats m 0 c).arrAt w cfg0.N = Wx m c (Proc.devRef .tc (Pipeline.arrRef spec0 w))
  | ⟨0, _⟩ => ((dats m 0 c).arrAt_in 0 rfl _).trans ((A_eq m c 0).trans (Wx_of_ne m c _ (by decide)).symm)
  | ⟨1, _⟩ => ((dats m 0 c).arrAt_in 1 rfl _).trans ((A_eq m c 1).trans (Wx_of_ne m c _ (by decide)).symm)
  | ⟨2, _⟩ => ((dats m 0 c).arrAt_in 2 rfl _).trans ((A_eq m c 2).trans (Wx_of_ne m c _ (by decide)).symm)
  | ⟨3, _⟩ => ((dats m 0 c).arrAt_in 3 rfl _).trans ((A_eq m c 3).trans (Wx_of_ne m c _ (by decide)).symm)
  | ⟨4, _⟩ => (Wx_out m c).symm

/-- The later lines touch unscoped buffers of the core only, -/
theorem sfx_sub : ∀ ops ∈ ([hostOps1] : List (List (HloOp τ sig (Elt F)))), ∀ op ∈ ops, op.bufs ⊆ ucRefs τ sig := by
  intro ops hops op hop
  simp only [List.mem_singleton] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_singleton] at hops
  rcases hops with rfl
  exact (List.forall_iff_forall_mem.mp hostOps1_fresh) op hop
/-- and write none of the three buffers behind the windows. -/
theorem sfx_keeps : ∀ op ∈ (hostOps1 : List (HloOp τ sig (Elt F))), ∀ w, Proc.devRef .tc (Pipeline.arrRef spec0 w) ∉ op.writes := by
  intro op hop
  simp only [hostOps1, List.mem_cons, List.mem_nil_iff, _root_.or_false] at hop
  rcases hop with rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

theorem Wfin_arr (c : Dev nD) (w : Fin cfg0.W) :
    Wfin m c (Proc.devRef .tc (Pipeline.arrRef spec0 w)) = Wx m c (Proc.devRef .tc (Pipeline.arrRef spec0 w)) := by
  unfold Wfin
  rw [List.flatten_cons, List.flatten_nil, List.append_nil]
  exact StableHlo.after_of_forall_not_mem _ _ fun op hop => sfx_keeps op hop w

/-- A core's unscoped buffers held at a valuation are the three buffers behind the windows and the rest. -/
theorem held_split (c : Dev nD) (W : Valuation τ sig (Elt F)) :
    (StableHlo.held (c.tc : Thread nD τ) (ucRefs τ sig) W : sProp 𝕄)
      = iprop((arrBufs spec0 c (fun b => W b) : sProp 𝕄) ∗ unscopedRest spec0 c (fun b => W b)) := by
  rw [← Pipeline.unscopedBufs_held, Pipeline.unscopedBufs_split₀ cfgs 0 winFacts₀0.arr_unscoped c]

/-- No buffer behind a window bypasses the region. -/
theorem ne_out_of_rest (b : Ref sig .tc) (hb : b ∈ (Finset.univ.filter fun b : Ref sig .tc => ¬ b.isScoped) \ Finset.univ.image (Pipeline.arrRef spec0)) :
    b ≠ main_v2 := fun e =>
  (Finset.mem_sdiff.mp hb).2 (Finset.mem_image.mpr ⟨4, Finset.mem_univ _, e.symm ▸ rfl⟩)

-- (the rule for a line of host operations is stated for any thread and is applied here at this core's thread)
set_option backward.isDefEq.respectTransparency.types false in
/-- THE LINES AFTER THE REGION: from the region's exit — the windows' arrays as the region left them, the bypassing
    buffers as on entry — the ten lines run and hand back the arrays unchanged and the bypassing buffers at `Wfin`. -/
theorem tail_run (𝒱₀ : Variants) (c : Dev nD) (Q' : PUnit → sProp 𝕄) :
    iprop((iprop((dats m 0 c).arrays ((dats m 0 c).arrAt · cfg0.N) ∗ unscopedRestP Prefetch.none spec0 c (fun b => Wfin m c (Proc.devRef .tc b))) -∗ Q' ⟨⟩)
        ∗ boundary (c.tc : Thread nD τ) ∗ (dats m 0 c).arrays ((dats m 0 c).arrAt · cfg0.N) ∗ unscopedRestP Prefetch.none spec0 c (V m c))
      ⊢ wp frame (wpE (Pipeline.defs (fun q => (cfgs q).toPCfg (Val := Elt F)) defs₀) (Variants.lift 𝒱₀) (c.tc : Thread nD τ) none) Set.univ
          (chain [StableHlo.seq hostOps1]) Q' := by
  rw [Pipeline.unscopedRestP_none, Pipeline.unscopedRestP_none]
  have hin : iprop((dats m 0 c).arrays ((dats m 0 c).arrAt · cfg0.N) ∗ unscopedRest spec0 c (V m c))
      ⊢ (StableHlo.held (c.tc : Thread nD τ) (ucRefs τ sig) (Wx m c) : sProp 𝕄) := by
    rw [held_split]
    refine sep_mono (bufs_of_arrays m c (fun b => Wx m c b) _ (Wx_arr m c)) (Entails.of_eq ?_)
    unfold Pipeline.unscopedRest
    exact bigSep_congr fun b hb => by beta_reduce; rw [Wx_of_ne m c b (ne_out_of_rest b hb)]
  have hout : (StableHlo.held (c.tc : Thread nD τ) (ucRefs τ sig) (Wfin m c) : sProp 𝕄)
      ⊢ iprop((dats m 0 c).arrays ((dats m 0 c).arrAt · cfg0.N) ∗ unscopedRest spec0 c (fun b => Wfin m c (Proc.devRef .tc b))) := by
    rw [held_split]
    exact sep_mono (arrays_of_bufs m c (fun b => Wfin m c b) _ fun w => (Wx_arr m c w).trans (Wfin_arr m c w).symm) .rfl
  have e : (chain [StableHlo.seq hostOps1] : Prog (TpuEff nD τ sig (Elt F) (Pipeline.Sig Λ₀ (Fin 1) fun p => ((cfgs p).toPCfg (Val := Elt F)).Adm) .tc) PUnit)
      = chain (([hostOps1] : List (List (HloOp τ sig (Elt F)))).map StableHlo.seq ++ []) := rfl
  rw [e]
  iintro ⟨Hk, Hb, Ha, Hz⟩
  ihave Hh := hin $$ [Ha Hz]
  · isplitl [Ha] <;> iassumption
  iapply (Pipeline.wp_seqs_then (fun q => (cfgs q).toPCfg (Val := Elt F)) defs₀ 𝒱₀ c (ucRefs τ sig) [] [hostOps1] sfx_sub sfx_fresh (Wx m c)) $$ [Hb Hh]
  · isplitl [Hb] <;> iassumption
  iintro ⟨-, Hh⟩
  rw [Pipeline.chain_nil, wp_pure]
  imodintro
  iapply Hk
  iapply hout
  iexact Hh

/-! ## The run -/

set_option backward.isDefEq.respectTransparency.types false in
/-- At the compiled mesh, for any values, from any memory with zero counters: every weakly fair execution of @main on the
    TensorCores terminates, and in every final state each buffer that bypasses the region holds what the later lines
    leave from the region's exit contents. -/
theorem run_main : θ_run defs (onTc (τ := τ) (main (F := F))) (s₀ m ρ)
    (fun r => ∀ c : Dev nD, ∀ b ∈ restRefsP sig Prefetch.none spec0, r.2.mem ((c.tc : Thread nD τ).loc b) = Wfin m c (Proc.devRef .tc b)) :=
  Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c) _ fun w => A_eq m c w)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (fun b => Wfin m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => tail_run m Variants.none c Q')
    (QY := fun c s => ∀ b ∈ restRefsP sig Prefetch.none spec0, s.mem ((c.tc : Thread nD τ).loc b) = Wfin m c (Proc.devRef .tc b))
    (hY := fun c s' => by
      iintro ⟨-, HU, HSI⟩
      unfold Pipeline.unscopedRestP
      imodintro
      iapply (pointsTo_read_all (restRefsP sig Prefetch.none spec0) (fun b => (c.tc : Thread nD τ).loc b) (fun b => Wfin m c (Proc.devRef .tc b)) s')
      isplitl [HU] <;> iassumption)
    (hQ := fun s h c => (h c).2.2)

/-! ## The arguments end unchanged -/

theorem keeps0_arg0 : ∀ op ∈ (hostOps0 : List (HloOp τ sig (Elt F))), Proc.devRef .tc main_arg0 ∉ op.writes := by
  intro op hop
  simp only [hostOps0, List.mem_cons, List.mem_nil_iff, _root_.or_false] at hop
  rcases hop with rfl | rfl
  all_goals (simp only [StableHlo.unary_writes, Finset.mem_singleton]; exact StableHlo.devRef_ne_of_ne (by decide))
theorem keeps0_arg1 : ∀ op ∈ (hostOps0 : List (HloOp τ sig (Elt F))), Proc.devRef .tc main_arg1 ∉ op.writes := by
  intro op hop
  simp only [hostOps0, List.mem_cons, List.mem_nil_iff, _root_.or_false] at hop
  rcases hop with rfl | rfl
  all_goals (simp only [StableHlo.unary_writes, Finset.mem_singleton]; exact StableHlo.devRef_ne_of_ne (by decide))
theorem keeps1_arg0 : ∀ op ∈ (hostOps1 : List (HloOp τ sig (Elt F))), Proc.devRef .tc main_arg0 ∉ op.writes := by
  intro op hop
  simp only [hostOps1, List.mem_cons, List.mem_nil_iff, _root_.or_false] at hop
  rcases hop with rfl | rfl | rfl | rfl | rfl | rfl | rfl | rfl | rfl | rfl
  all_goals (simp only [StableHlo.nullary_writes, StableHlo.unary_writes, StableHlo.binary_writes, StableHlo.reshape_writes, Finset.mem_singleton]; exact StableHlo.devRef_ne_of_ne (by decide))
theorem keeps1_arg1 : ∀ op ∈ (hostOps1 : List (HloOp τ sig (Elt F))), Proc.devRef .tc main_arg1 ∉ op.writes := by
  intro op hop
  simp only [hostOps1, List.mem_cons, List.mem_nil_iff, _root_.or_false] at hop
  rcases hop with rfl | rfl | rfl | rfl | rfl | rfl | rfl | rfl | rfl | rfl
  all_goals (simp only [StableHlo.nullary_writes, StableHlo.unary_writes, StableHlo.binary_writes, StableHlo.reshape_writes, Finset.mem_singleton]; exact StableHlo.devRef_ne_of_ne (by decide))

/-- A buffer that neither the transposes nor the later lines write, and that is not the output row's array, ends at its
    launch contents. -/
theorem Wfin_kept (c : Dev nD) (b : Ref sig .tc) (hb : b ≠ main_v2)
    (h0 : ∀ op ∈ (hostOps0 : List (HloOp τ sig (Elt F))), Proc.devRef .tc b ∉ op.writes)
    (h1 : ∀ op ∈ (hostOps1 : List (HloOp τ sig (Elt F))), Proc.devRef .tc b ∉ op.writes) :
    Wfin m c (Proc.devRef .tc b) = m ((c.tc : Thread nD τ).loc b) := by
  unfold Wfin
  rw [List.flatten_cons, List.flatten_nil, List.append_nil, StableHlo.after_of_forall_not_mem _ _ h1, Wx_of_ne m c b hb]
  show StableHlo.after (List.flatten [hostOps0]) (fun b => m (c, b)) (Proc.devRef .tc b) = _
  rw [List.flatten_cons, List.flatten_nil, List.append_nil, StableHlo.after_of_forall_not_mem _ _ h0]

/-- THE FRAME: every weakly fair execution of @main terminates, faulting nowhere, with both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c main_arg0 (by decide)).trans (Wfin_kept m c main_arg0 (by decide) keeps0_arg0 keeps1_arg0),
       (h c main_arg1 (by decide)).trans (Wfin_kept m c main_arg1 (by decide) keeps0_arg1 keeps1_arg1)⟩)
    (run_main m ρ)

end Cert.Kernel.Tau

end
-- ==== Proof.IdealRun.Setup.lean ====
/-
  The kernel region of @main and what surrounds it. @main transposes the two arguments (P = arg0 transposed, L = arg1
  transposed, 1024 rows by 128 columns each), runs the region on a grid of 128 points, and finishes with ten host lines.
  The region has five windows: an 8-row tile of P and one of L that move with the grid point, the whole of P and the
  whole of L fetched once, and a 1-by-128 output row written back after the last point. Two windows read P and two
  read L: each pair shares its array.
  Here: the buffers' contents when the region is entered, @main as lines / region / lines, each window's block read
  off those contents, the fact that an input's buffer holds its block at every point whether fetched there or not, and
  the body's one branch condition ("this is grid point 0") decided over the grid.
-/
import proofs.«170882_j29918742184749_2_alg».proof.Proof.Gen.KernelIdeal.Launch
import proofs.«170882_j29918742184749_2_alg».proof.Proof.Gen.KernelIdeal.Skeleton
import proofs.«170882_j29918742184749_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tau

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: the launch contents after the two transposes. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two transposes, the region, and the ten later lines: it reduces to the region continued by the
    later lines, entered at the contents after the transposes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the block
    index has not moved), for any proof data whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the block
    index has not moved), for any proof data whose array is the entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the block
    index has not moved), for any proof data whose array is the entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, the block
    index has not moved), for any proof data whose array is the entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one branch, from the grid coordinates: "the first coordinate is 0". -/
abbrev cond0_0 (i : grid0.Coords) : Prop := (Scalar.cmpi .ne (Scalar.extui (Scalar.cmpi .eq (BitVec.ofNat 32 (i 0).val) 0#32)) 0#32) = 1#1
/-- It holds at the first point only, decided over the 128 points. -/
theorem hcond0_0 : ∀ t : Fin cfg0.N, cond0_0 (grid0.coords t) ↔ t.val % 128 = 0 :=
  (by decide +kernel : ∀ t : Fin grid0.N, cond0_0 (grid0.coords t) ↔ t.val % 128 = 0)

/-! ## The staging memrefs at a point -/

/-- One staging buffer of the output window, through which its contents are stated. -/
abbrev VO0_4 : View sig .tc .vmem S1x128 .f32 := (Memref.whole cc0_stg4_0 : Memref sig .tc .vmem S1x128 .f32).view
/-- Each window's current staging memref at point `t`, as the pipeline passes it, and its wholeness. -/
abbrev ms0_0 (t : Fin cfg0.N) : Memref sig .tc .vmem S8x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)

end Cert.KernelIdeal.Tau

end
-- ==== Proof.IdealRun.RunFirst.lean ====
/-
  The kernel body run at the first grid point, on any whole staging buffers: the branch is taken, so the output row is
  first overwritten with zeros and then read back, added to this tile's partial sums and stored again. The four input
  buffers are only read; the output buffer may hold anything on entry.
-/
import proofs.«170882_j29918742184749_2_alg».proof.Proof.IdealRun.Setup

set_option maxRecDepth 16384

noncomputable section

namespace Cert.KernelIdeal.Tau

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output row's buffer at the first point, as the list of stored pieces (last
    first), with the proof that from whole staging buffers — the inputs at `x0 … x3`, the output at anything — the body
    runs to its continuation holding the inputs as they were and the output with those pieces written. -/
noncomputable def runFirst (c : Dev nD) (i : grid0.Coords) (arg1 : Memref sig .tc .vmem S8x128 .f32) (harg1 : arg1.IsWhole) (arg2 : Memref sig .tc .vmem S8x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (hc0 : cond0_0 i)
    (x0 x1 : Vec F S8x128 .f32) (x2 x3 : Vec F S1024x128 .f32) :
    { L4 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__tau_kernel i arg1 harg1 arg2 harg2 arg3 harg3 arg4 harg4 arg5 harg5) K } := by
  refine ⟨?_, fun E K => ?run⟩
  case run =>
    simp only [cc0__tau_kernel_eq_skeleton]; unfold cc0__tau_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Tau

end
-- ==== Proof.IdealRun.RunLater.lean ====
/-
  The kernel body run at a later grid point, on any whole staging buffers: the branch is not taken, so the output row
  the point before left (`xo4`) is read back, added to this tile's partial sums and stored again.
-/
import proofs.«170882_j29918742184749_2_alg».proof.Proof.IdealRun.RunFirst

set_option maxRecDepth 16384

noncomputable section

namespace Cert.KernelIdeal.Tau

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output row's buffer at a later point, as the list of stored pieces, with the
    proof that from whole staging buffers — the inputs at `x0 … x3`, the output at its running contents `xo4` — the body
    runs to its continuation holding the inputs as they were and the output with those pieces written. -/
noncomputable def runLater (c : Dev nD) (i : grid0.Coords) (arg1 : Memref sig .tc .vmem S8x128 .f32) (harg1 : arg1.IsWhole) (arg2 : Memref sig .tc .vmem S8x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (hc0 : ¬cond0_0 i)
    (x0 x1 : Vec F S8x128 .f32) (x2 x3 : Vec F S1024x128 .f32) (xo4 : Vec F S1x128 .f32) :
    { L4 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__tau_kernel i arg1 harg1 arg2 harg2 arg3 harg3 arg4 harg4 arg5 harg5) K } := by
  refine ⟨?_, fun E K => ?run⟩
  case run =>
    simp only [cc0__tau_kernel_eq_skeleton]; unfold cc0__tau_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1
    obtain rfl := harg3.eq_unread hf2; obtain rfl := harg4.eq_unread hf3
    obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Tau

end
-- ==== Proof.IdealRun.Body.lean ====
/-
  The proof data of the kernel region and the body's obligation at every grid point.
  The output row's staging buffer is an accumulator: the first point overwrites it with zeros and adds the first tile's
  partial sums; every later point adds its tile's partial sums to what the point before left; the buffer is written back
  to the array once, after the last point. `outsAt` is that recursion. The four input windows' buffers hold their
  blocks at every point. The two windows on P hold a half share of P's array each, likewise the two on L; the output
  window holds its array whole.
-/
import proofs.«170882_j29918742184749_2_alg».proof.Proof.IdealRun.RunLater

set_option maxRecDepth 16384

noncomputable section

namespace Cert.KernelIdeal.Tau

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's stored pieces tile the output row's block, so they cover it. -/
theorem cover_first (c : Dev nD) (i : grid0.Coords) (arg1 : Memref sig .tc .vmem S8x128 .f32) (harg1 : arg1.IsWhole) (arg2 : Memref sig .tc .vmem S8x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (hc0 : cond0_0 i)
    (x0 x1 : Vec F S8x128 .f32) (x2 x3 : Vec F S1024x128 .f32) (y : S1x128.Idx) :
    ∃ pc ∈ (runFirst c i arg1 harg1 arg2 harg2 arg3 harg3 arg4 harg4 arg5 harg5 hc0 x0 x1 x2 x3).1, y ∈ pc.1.set :=
  View.cover_of_tiledL (runFirst c i arg1 harg1 arg2 harg2 arg3 harg3 arg4 harg4 arg5 harg5 hc0 x0 x1 x2 x3).1 S1x128.size (by sl_kernel_rfl) y

/-- What the first point leaves in the output row's buffer: its pieces read back. -/
def outFirst (c : Dev nD) (i : grid0.Coords) (arg1 : Memref sig .tc .vmem S8x128 .f32) (harg1 : arg1.IsWhole) (arg2 : Memref sig .tc .vmem S8x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (hc0 : cond0_0 i)
    (x0 x1 : Vec F S8x128 .f32) (x2 x3 : Vec F S1024x128 .f32) : Vec F S1x128 .f32 :=
  VO0_4.read (Elt F) (VO0_4.writes (Elt F) VO0_4.junk (runFirst c i arg1 harg1 arg2 harg2 arg3 harg3 arg4 harg4 arg5 harg5 hc0 x0 x1 x2 x3).1)

/-- A later point's stored pieces tile the output row's block, so they cover it. -/
theorem cover_later (c : Dev nD) (i : grid0.Coords) (arg1 : Memref sig .tc .vmem S8x128 .f32) (harg1 : arg1.IsWhole) (arg2 : Memref sig .tc .vmem S8x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (hc0 : ¬cond0_0 i)
    (x0 x1 : Vec F S8x128 .f32) (x2 x3 : Vec F S1024x128 .f32) (xo4 : Vec F S1x128 .f32) (y : S1x128.Idx) :
    ∃ pc ∈ (runLater c i arg1 harg1 arg2 harg2 arg3 harg3 arg4 harg4 arg5 harg5 hc0 x0 x1 x2 x3 xo4).1, y ∈ pc.1.set :=
  View.cover_of_tiledL (runLater c i arg1 harg1 arg2 harg2 arg3 harg3 arg4 harg4 arg5 harg5 hc0 x0 x1 x2 x3 xo4).1 S1x128.size (by sl_kernel_rfl) y

/-- What a later point leaves in the output row's buffer: its pieces read back. -/
def outLater (c : Dev nD) (i : grid0.Coords) (arg1 : Memref sig .tc .vmem S8x128 .f32) (harg1 : arg1.IsWhole) (arg2 : Memref sig .tc .vmem S8x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (hc0 : ¬cond0_0 i)
    (x0 x1 : Vec F S8x128 .f32) (x2 x3 : Vec F S1024x128 .f32) (xo4 : Vec F S1x128 .f32) : Vec F S1x128 .f32 :=
  VO0_4.read (Elt F) (VO0_4.writes (Elt F) VO0_4.junk (runLater c i arg1 harg1 arg2 harg2 arg3 harg3 arg4 harg4 arg5 harg5 hc0 x0 x1 x2 x3 xo4).1)

/-! ## What the output row holds after each point -/

/-- THE ACCUMULATION: what the output row's staging buffer holds after the body at position `n`. -/
def outsAt (c : Dev nD) : (n : ℕ) → n < cfg0.N → Vec F S1x128 .f32
  | 0, hn => outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 128 = 0 then
      outFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn))

/-- `outsAt` at the first point. -/
theorem outsAt_first (c : Dev nD) (t : Fin cfg0.N) (h0 : t.val % 128 = 0) :
    outsAt m c t.val t.isLt = outFirst c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- `outsAt` at a later point: over what the point before left. -/
theorem outsAt_later (c : Dev nD) (t : Fin cfg0.N) (h0 : ¬t.val % 128 = 0) :
    outsAt m c t.val t.isLt = outLater c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data of the pipeline on core `c`: the arrays as the region finds them; after the body at point `t` each
    input's buffer at its block and the output's at `outsAt`; the invariant is the scoped rest and the generator
    register; nothing owed; P's and L's arrays held by halves, one half per window on them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt)
  Φ _ := Pipeline.ΦA spec0 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a later point the output row's buffer holds what the body left at the point before: the buffer is written back
    only after the last point. -/
theorem before0_4_later (c : Dev nD) (t : Fin cfg0.N) (h0 : ¬t.val % 128 = 0) (d) :
    (dats m 0 c).before 4 t d = (outsAt m c (t.val - 1) (Nat.lt_of_le_of_lt (Nat.sub_le _ _) t.isLt)) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the point is the first or a later one; at a later one
    the output's buffer holds what the point before left; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 128 := lt_of_lt_of_eq t.isLt (show cfg0.N = 128 from N_0)
  by_cases h0 : t.val % 128 = 0
  · rw [outsAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_first c _ _ _ _ _ _ _ _ _ _ _ _ _ _ _ _)
  · rw [outsAt_later m c t h0]
    simp only [before0_4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_later c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Tau

end
-- ==== Proof.IdealRun.Launch.lean ====
/-
  The region launched. Five windows sit on three buffers: P (its 8-row tile and its whole), L (likewise) and the output
  row. On entry each of P and L, held whole, is dealt to its two windows by halves; at the exit the halves are joined
  again (an input array is never written, so both halves hold the entry contents) and the ten later host lines run on
  the buffers as the region left them: everything as on entry except the output row's array, which holds what the
  write-back after the last point put there. The conclusion names what every buffer that bypasses the region holds at
  the end: the later lines' result from those exit contents.
-/
import proofs.«170882_j29918742184749_2_alg».proof.Proof.IdealRun.Body

set_option maxRecDepth 16384

noncomputable section

namespace Cert.KernelIdeal.Tau

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs unscopedRest unscopedRestP restRefs restRefsP ucRefs Prefetch chain)

/-! ## Three buffers behind five windows -/

/-- The windows' arrays are three buffers — P, L and the output row —, here named by the first window on each. -/
theorem bigSep_arrs {M : Type} [URA M] (Φ : Ref sig .tc → sProp M) :
    bigSep (Finset.univ.image (Pipeline.arrRef spec0)) Φ
      = iprop(Φ (Pipeline.arrRef spec0 0) ∗ Φ (Pipeline.arrRef spec0 1) ∗ Φ (Pipeline.arrRef spec0 4)) :=
  bigSep_eq_bigSepL_of_eq [Pipeline.arrRef spec0 0, Pipeline.arrRef spec0 1, Pipeline.arrRef spec0 4] (by decide) (by decide) Φ

/-- Window 2 reads the buffer window 0 reads (P), window 3 the one window 1 reads (L). -/
theorem arr_2 : Pipeline.arrRef spec0 2 = Pipeline.arrRef spec0 0 := by decide
theorem arr_3 : Pipeline.arrRef spec0 3 = Pipeline.arrRef spec0 1 := by decide

section Arrays

variable (c : Dev nD) (G : (b : Ref sig .tc) → Buf (Elt F) ((c : Thread nD τ).loc b))
  (Fw : (w : Fin cfg0.W) → Buf (Elt F) ((cfg0.win w).arr.view.loc (c : Thread nD τ)))
  (hF : ∀ w, Fw w = G (Pipeline.arrRef spec0 w))

/-- The shares: the tiles' windows hold the left halves, the whole-array windows the right halves, the output all. -/
theorem share_0 : (dats m 0 c).share 0 = fullShare.left := by unfold Dat.share; rw [if_neg (by decide)]; dsimp only [dats]
theorem share_1 : (dats m 0 c).share 1 = fullShare.left := by unfold Dat.share; rw [if_neg (by decide)]; dsimp only [dats]
theorem share_2 : (dats m 0 c).share 2 = fullShare.right := by unfold Dat.share; rw [if_neg (by decide)]; dsimp only [dats]
theorem share_3 : (dats m 0 c).share 3 = fullShare.right := by unfold Dat.share; rw [if_neg (by decide)]; dsimp only [dats]
theorem share_4 : (dats m 0 c).share 4 = fullShare := by unfold Dat.share; rw [if_pos (by decide)]

include hF in
/-- One window's array, held at share `q` at `Fw w`, is the buffer behind it at `G`. -/
theorem win_pt (w : Fin cfg0.W) (q : PosShare TreeShare) :
    ((cfg0.win w).arr.view.loc (c : Thread nD τ) ↦[(cfg0.win w).arr.view.set]{q} Fw w : sProp 𝕄)
      = (((c : Thread nD τ).loc (Pipeline.arrRef spec0 w)) ↦{q} G (Pipeline.arrRef spec0 w)) := by
  rw [(arr_whole0 w).set_eq_univ, hF w]

include hF in
/-- The five windows' arrays, with the shares spelled out and each window's array named by its buffer. -/
theorem arrays_eq5 : ((dats m 0 c).arrays Fw : sProp 𝕄)
    = iprop((((c : Thread nD τ).loc (Pipeline.arrRef spec0 0)) ↦{fullShare.left} G (Pipeline.arrRef spec0 0))
        ∗ (((c : Thread nD τ).loc (Pipeline.arrRef spec0 1)) ↦{fullShare.left} G (Pipeline.arrRef spec0 1))
        ∗ (((c : Thread nD τ).loc (Pipeline.arrRef spec0 0)) ↦{fullShare.right} G (Pipeline.arrRef spec0 0))
        ∗ (((c : Thread nD τ).loc (Pipeline.arrRef spec0 1)) ↦{fullShare.right} G (Pipeline.arrRef spec0 1))
        ∗ (((c : Thread nD τ).loc (Pipeline.arrRef spec0 4)) ↦{fullShare} G (Pipeline.arrRef spec0 4))) := by
  unfold Dat.arrays
  rw [bigSep_W0, share_0, share_1, share_2, share_3, share_4, win_pt c G Fw hF 0, win_pt c G Fw hF 1, win_pt c G Fw hF 2,
    win_pt c G Fw hF 3, win_pt c G Fw hF 4, arr_2, arr_3]

include hF in
/-- The three buffers whole at `G` are the five windows' arrays: P and L split into halves. -/
theorem arrays_of_bufs : (arrBufs spec0 c G : sProp 𝕄) ⊢ (dats m 0 c).arrays Fw := by
  rw [arrays_eq5 m c G Fw hF]
  unfold Pipeline.arrBufs
  rw [bigSep_arrs]
  iintro ⟨H0, H1, H2⟩
  ihave H0' := (pointsTo_share (PosShare.mem_left_op_right fullShare)).1 $$ H0
  ihave H1' := (pointsTo_share (PosShare.mem_left_op_right fullShare)).1 $$ H1
  icases H0' with ⟨H0l, H0r⟩
  icases H1' with ⟨H1l, H1r⟩
  isplitl [H0l]; · iexact H0l
  isplitl [H1l]; · iexact H1l
  isplitl [H0r]; · iexact H0r
  isplitl [H1r]; · iexact H1r
  iexact H2

include hF in
/-- And back: the halves of P and of L joined. -/
theorem bufs_of_arrays : (dats m 0 c).arrays Fw ⊢ (arrBufs spec0 c G : sProp 𝕄) := by
  rw [arrays_eq5 m c G Fw hF]
  unfold Pipeline.arrBufs
  rw [bigSep_arrs]
  iintro ⟨H0l, H1l, H0r, H1r, H2⟩
  isplitl [H0l H0r]
  · iapply (pointsTo_share (PosShare.mem_left_op_right fullShare)).2
    isplitl [H0l] <;> iassumption
  isplitl [H1l H1r]
  · iapply (pointsTo_share (PosShare.mem_left_op_right fullShare)).2
    isplitl [H1l] <;> iassumption
  iexact H2

end Arrays

/-! ## The contents when the region is left, and after the later lines -/

open Classical in
/-- A core's buffer contents when the region is left: as on entry, except the output row's array, which holds what the
    write-back after the last point put there. -/
def Wx (c : Dev nD) : Valuation τ sig (Elt F) :=
  Function.update (V0 m c) (Proc.devRef .tc main_v2) ((dats m 0 c).arrAt 4 cfg0.N)

/-- The contents after the ten later lines. -/
def Wfin (c : Dev nD) : Valuation τ sig (Elt F) := StableHlo.after (List.flatten [hostOps1]) (Wx m c)

theorem Wx_out (c : Dev nD) : Wx m c (Proc.devRef .tc main_v2) = (dats m 0 c).arrAt 4 cfg0.N := by
  unfold Wx; exact Function.update_self ..

theorem Wx_of_ne (c : Dev nD) (b : Ref sig .tc) (hb : b ≠ main_v2) : Wx m c (Proc.devRef .tc b) = V m c b := by
  unfold Wx; exact Function.update_of_ne (fun e => hb (Proc.devRef_injective _ e)) _ _

/-- Each window's array at the exit is the exit contents of the buffer behind it: an input array is never written. -/
theorem Wx_arr (c : Dev nD) : ∀ w : Fin cfg0.W, (dats m 0 c).arrAt w cfg0.N = Wx m c (Proc.devRef .tc (Pipeline.arrRef spec0 w))
  | ⟨0, _⟩ => ((dats m 0 c).arrAt_in 0 rfl _).trans ((A_eq m c 0).trans (Wx_of_ne m c _ (by decide)).symm)
  | ⟨1, _⟩ => ((dats m 0 c).arrAt_in 1 rfl _).trans ((A_eq m c 1).trans (Wx_of_ne m c _ (by decide)).symm)
  | ⟨2, _⟩ => ((dats m 0 c).arrAt_in 2 rfl _).trans ((A_eq m c 2).trans (Wx_of_ne m c _ (by decide)).symm)
  | ⟨3, _⟩ => ((dats m 0 c).arrAt_in 3 rfl _).trans ((A_eq m c 3).trans (Wx_of_ne m c _ (by decide)).symm)
  | ⟨4, _⟩ => (Wx_out m c).symm

/-- The later lines touch unscoped buffers of the core only, -/
theorem sfx_sub : ∀ ops ∈ ([hostOps1] : List (List (HloOp τ sig (Elt F)))), ∀ op ∈ ops, op.bufs ⊆ ucRefs τ sig := by
  intro ops hops op hop
  simp only [List.mem_singleton] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_singleton] at hops
  rcases hops with rfl
  exact (List.forall_iff_forall_mem.mp hostOps1_fresh) op hop
/-- and write none of the three buffers behind the windows. -/
theorem sfx_keeps : ∀ op ∈ (hostOps1 : List (HloOp τ sig (Elt F))), ∀ w, Proc.devRef .tc (Pipeline.arrRef spec0 w) ∉ op.writes := by
  intro op hop
  simp only [hostOps1, List.mem_cons, List.mem_nil_iff, _root_.or_false] at hop
  rcases hop with rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

theorem Wfin_arr (c : Dev nD) (w : Fin cfg0.W) :
    Wfin m c (Proc.devRef .tc (Pipeline.arrRef spec0 w)) = Wx m c (Proc.devRef .tc (Pipeline.arrRef spec0 w)) := by
  unfold Wfin
  rw [List.flatten_cons, List.flatten_nil, List.append_nil]
  exact StableHlo.after_of_forall_not_mem _ _ fun op hop => sfx_keeps op hop w

/-- A core's unscoped buffers held at a valuation are the three buffers behind the windows and the rest. -/
theorem held_split (c : Dev nD) (W : Valuation τ sig (Elt F)) :
    (StableHlo.held (c.tc : Thread nD τ) (ucRefs τ sig) W : sProp 𝕄)
      = iprop((arrBufs spec0 c (fun b => W b) : sProp 𝕄) ∗ unscopedRest spec0 c (fun b => W b)) := by
  rw [← Pipeline.unscopedBufs_held, Pipeline.unscopedBufs_split₀ cfgs 0 winFacts₀0.arr_unscoped c]

/-- No buffer behind a window bypasses the region. -/
theorem ne_out_of_rest (b : Ref sig .tc) (hb : b ∈ (Finset.univ.filter fun b : Ref sig .tc => ¬ b.isScoped) \ Finset.univ.image (Pipeline.arrRef spec0)) :
    b ≠ main_v2 := fun e =>
  (Finset.mem_sdiff.mp hb).2 (Finset.mem_image.mpr ⟨4, Finset.mem_univ _, e.symm ▸ rfl⟩)

-- (the rule for a line of host operations is stated for any thread and is applied here at this core's thread)
set_option backward.isDefEq.respectTransparency.types false in
/-- THE LINES AFTER THE REGION: from the region's exit — the windows' arrays as the region left them, the bypassing
    buffers as on entry — the ten lines run and hand back the arrays unchanged and the bypassing buffers at `Wfin`. -/
theorem tail_run (𝒱₀ : Variants) (c : Dev nD) (Q' : PUnit → sProp 𝕄) :
    iprop((iprop((dats m 0 c).arrays ((dats m 0 c).arrAt · cfg0.N) ∗ unscopedRestP Prefetch.none spec0 c (fun b => Wfin m c (Proc.devRef .tc b))) -∗ Q' ⟨⟩)
        ∗ boundary (c.tc : Thread nD τ) ∗ (dats m 0 c).arrays ((dats m 0 c).arrAt · cfg0.N) ∗ unscopedRestP Prefetch.none spec0 c (V m c))
      ⊢ wp frame (wpE (Pipeline.defs (fun q => (cfgs q).toPCfg (Val := Elt F)) defs₀) (Variants.lift 𝒱₀) (c.tc : Thread nD τ) none) Set.univ
          (chain [StableHlo.seq hostOps1]) Q' := by
  rw [Pipeline.unscopedRestP_none, Pipeline.unscopedRestP_none]
  have hin : iprop((dats m 0 c).arrays ((dats m 0 c).arrAt · cfg0.N) ∗ unscopedRest spec0 c (V m c))
      ⊢ (StableHlo.held (c.tc : Thread nD τ) (ucRefs τ sig) (Wx m c) : sProp 𝕄) := by
    rw [held_split]
    refine sep_mono (bufs_of_arrays m c (fun b => Wx m c b) _ (Wx_arr m c)) (Entails.of_eq ?_)
    unfold Pipeline.unscopedRest
    exact bigSep_congr fun b hb => by beta_reduce; rw [Wx_of_ne m c b (ne_out_of_rest b hb)]
  have hout : (StableHlo.held (c.tc : Thread nD τ) (ucRefs τ sig) (Wfin m c) : sProp 𝕄)
      ⊢ iprop((dats m 0 c).arrays ((dats m 0 c).arrAt · cfg0.N) ∗ unscopedRest spec0 c (fun b => Wfin m c (Proc.devRef .tc b))) := by
    rw [held_split]
    exact sep_mono (arrays_of_bufs m c (fun b => Wfin m c b) _ fun w => (Wx_arr m c w).trans (Wfin_arr m c w).symm) .rfl
  have e : (chain [StableHlo.seq hostOps1] : Prog (TpuEff nD τ sig (Elt F) (Pipeline.Sig Λ₀ (Fin 1) fun p => ((cfgs p).toPCfg (Val := Elt F)).Adm) .tc) PUnit)
      = chain (([hostOps1] : List (List (HloOp τ sig (Elt F)))).map StableHlo.seq ++ []) := rfl
  rw [e]
  iintro ⟨Hk, Hb, Ha, Hz⟩
  ihave Hh := hin $$ [Ha Hz]
  · isplitl [Ha] <;> iassumption
  iapply (Pipeline.wp_seqs_then (fun q => (cfgs q).toPCfg (Val := Elt F)) defs₀ 𝒱₀ c (ucRefs τ sig) [] [hostOps1] sfx_sub sfx_fresh (Wx m c)) $$ [Hb Hh]
  · isplitl [Hb] <;> iassumption
  iintro ⟨-, Hh⟩
  rw [Pipeline.chain_nil, wp_pure]
  imodintro
  iapply Hk
  iapply hout
  iexact Hh

/-! ## The run -/

set_option backward.isDefEq.respectTransparency.types false in
/-- At the compiled mesh, for any values, from any memory with zero counters: every weakly fair execution of @main on the
    TensorCores terminates, and in every final state each buffer that bypasses the region holds what the later lines
    leave from the region's exit contents. -/
theorem run_main : θ_run defs (onTc (τ := τ) (main (F := F))) (s₀ m ρ)
    (fun r => ∀ c : Dev nD, ∀ b ∈ restRefsP sig Prefetch.none spec0, r.2.mem ((c.tc : Thread nD τ).loc b) = Wfin m c (Proc.devRef .tc b)) :=
  Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c) _ fun w => A_eq m c w)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (fun b => Wfin m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => tail_run m Variants.none c Q')
    (QY := fun c s => ∀ b ∈ restRefsP sig Prefetch.none spec0, s.mem ((c.tc : Thread nD τ).loc b) = Wfin m c (Proc.devRef .tc b))
    (hY := fun c s' => by
      iintro ⟨-, HU, HSI⟩
      unfold Pipeline.unscopedRestP
      imodintro
      iapply (pointsTo_read_all (restRefsP sig Prefetch.none spec0) (fun b => (c.tc : Thread nD τ).loc b) (fun b => Wfin m c (Proc.devRef .tc b)) s')
      isplitl [HU] <;> iassumption)
    (hQ := fun s h c => (h c).2.2)

/-! ## The arguments end unchanged -/

theorem keeps0_arg0 : ∀ op ∈ (hostOps0 : List (HloOp τ sig (Elt F))), Proc.devRef .tc main_arg0 ∉ op.writes := by
  intro op hop
  simp only [hostOps0, List.mem_cons, List.mem_nil_iff, _root_.or_false] at hop
  rcases hop with rfl | rfl
  all_goals (simp only [StableHlo.unary_writes, Finset.mem_singleton]; exact StableHlo.devRef_ne_of_ne (by decide))
theorem keeps0_arg1 : ∀ op ∈ (hostOps0 : List (HloOp τ sig (Elt F))), Proc.devRef .tc main_arg1 ∉ op.writes := by
  intro op hop
  simp only [hostOps0, List.mem_cons, List.mem_nil_iff, _root_.or_false] at hop
  rcases hop with rfl | rfl
  all_goals (simp only [StableHlo.unary_writes, Finset.mem_singleton]; exact StableHlo.devRef_ne_of_ne (by decide))
theorem keeps1_arg0 : ∀ op ∈ (hostOps1 : List (HloOp τ sig (Elt F))), Proc.devRef .tc main_arg0 ∉ op.writes := by
  intro op hop
  simp only [hostOps1, List.mem_cons, List.mem_nil_iff, _root_.or_false] at hop
  rcases hop with rfl | rfl | rfl | rfl | rfl | rfl | rfl | rfl | rfl | rfl
  all_goals (simp only [StableHlo.nullary_writes, StableHlo.unary_writes, StableHlo.binary_writes, StableHlo.reshape_writes, Finset.mem_singleton]; exact StableHlo.devRef_ne_of_ne (by decide))
theorem keeps1_arg1 : ∀ op ∈ (hostOps1 : List (HloOp τ sig (Elt F))), Proc.devRef .tc main_arg1 ∉ op.writes := by
  intro op hop
  simp only [hostOps1, List.mem_cons, List.mem_nil_iff, _root_.or_false] at hop
  rcases hop with rfl | rfl | rfl | rfl | rfl | rfl | rfl | rfl | rfl | rfl
  all_goals (simp only [StableHlo.nullary_writes, StableHlo.unary_writes, StableHlo.binary_writes, StableHlo.reshape_writes, Finset.mem_singleton]; exact StableHlo.devRef_ne_of_ne (by decide))

/-- A buffer that neither the transposes nor the later lines write, and that is not the output row's array, ends at its
    launch contents. -/
theorem Wfin_kept (c : Dev nD) (b : Ref sig .tc) (hb : b ≠ main_v2)
    (h0 : ∀ op ∈ (hostOps0 : List (HloOp τ sig (Elt F))), Proc.devRef .tc b ∉ op.writes)
    (h1 : ∀ op ∈ (hostOps1 : List (HloOp τ sig (Elt F))), Proc.devRef .tc b ∉ op.writes) :
    Wfin m c (Proc.devRef .tc b) = m ((c.tc : Thread nD τ).loc b) := by
  unfold Wfin
  rw [List.flatten_cons, List.flatten_nil, List.append_nil, StableHlo.after_of_forall_not_mem _ _ h1, Wx_of_ne m c b hb]
  show StableHlo.after (List.flatten [hostOps0]) (fun b => m (c, b)) (Proc.devRef .tc b) = _
  rw [List.flatten_cons, List.flatten_nil, List.append_nil, StableHlo.after_of_forall_not_mem _ _ h0]

/-- THE FRAME: every weakly fair execution of @main terminates, faulting nowhere, with both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c main_arg0 (by decide)).trans (Wfin_kept m c main_arg0 (by decide) keeps0_arg0 keeps1_arg0),
       (h c main_arg1 (by decide)).trans (Wfin_kept m c main_arg1 (by decide) keeps0_arg1 keeps1_arg1)⟩)
    (run_main m ρ)

end Cert.KernelIdeal.Tau

end
-- ==== Proof.PairSum.lean ====
/-
  The quantity both programs compute, index by index, over the extended reals.

  P and L are matrices of 1024 rows and 128 columns. For a column q, an ordered pair of rows (i, j) contributes
      tanh ((P i q - P j q) * sign (L i q - L j q)),
  the sign being -1, 0 or 1 by the order (and the infinities' -1 and 1). `total P L q` is the sum of that term over
  all 1024 x 1024 ordered pairs, rows i outermost. `slab P L t q` is the part of it a tile of eight consecutive rows
  i = 8 t, ..., 8 t + 7 contributes, summed over j first and over the eight rows inside; `total_eq_slabs` says the 128
  slabs add up to the total. Addition of extended reals is commutative and associative with no side condition, so no
  finiteness is asked anywhere.
-/
import Idealize.ShloMosaic.PureOps.Ideal
import Idealize.ShloMosaic.Lib.ValueIdx

noncomputable section

open scoped BigOperators

namespace Cert.PairSum

open Idealize.ShloMosaic Idealize.ShloMosaic.ValueIdx

/-- A matrix of 1024 rows and 128 columns of extended reals, indexed as the programs index it. -/
abbrev Mat : Type := (⟨2, ![1024, 128]⟩ : Shape).Idx → EReal

/-- What the ordered pair of rows `(i, j)` contributes in column `q`. -/
def pair (P L : Mat) (i j : Fin 1024) (q : Fin 128) : EReal :=
  Ideal.tanh ((P (ix2 i q) - P (ix2 j q)) * Ideal.sign (L (ix2 i q) - L (ix2 j q)))

/-- The sum over all ordered pairs of rows, in column `q`. -/
def total (P L : Mat) (q : Fin 128) : EReal := ∑ i : Fin 1024, ∑ j : Fin 1024, pair P L i j q

/-- Row `8 t + r` of tile `t`. -/
def row (t : Fin 128) (r : Fin 8) : Fin 1024 := ⟨8 * t.val + r.val, by omega⟩

/-- What tile `t` (rows `8 t` to `8 t + 7`) contributes in column `q`: over `j` first, the tile's rows inside. -/
def slab (P L : Mat) (t : Fin 128) (q : Fin 128) : EReal := ∑ j : Fin 1024, ∑ r : Fin 8, pair P L (row t r) j q

end Cert.PairSum

end
-- ==== Proof.PayIdeal.lean ====
/-
  The two values the kernel's body stores, read index by index over the extended reals.

  At the first grid point the body stores the zero row. At every grid point it then stores, in column q, the row read
  back plus
      sum over the 1024 rows j, sum over the tile's 8 rows r, of  tanh ((a r q - B j q) * sign (c r q - D j q)),
  where a, c are the 8 x 128 tiles of the two matrices and B, D the whole 1024 x 128 matrices. The body builds this by
  spreading each tile row over the 1024 rows and each matrix over the 8 tile rows (an 8 x 1024 x 128 block), taking the
  two differences, the sign of the second one (written with two comparisons and two selections, which is the sign at
  every extended real, the infinities included), the product, the hyperbolic tangent, and two sums over one axis each:
  over the tile's 8 rows first, then over the 1024 rows. The two sums start from the zero word, which adds nothing.
-/
import proofs.«170882_j29918742184749_2_alg».proof.Proof.Gen.KernelIdeal.Skeleton
import proofs.«170882_j29918742184749_2_alg».proof.Proof.PairSum
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.PayIdeal

open Idealize.ShloMosaic Idealize.ShloMosaic.ValueIdx Cert.KernelIdeal Cert.KernelIdeal.Gen

/-- The row stored at the first grid point is zero in every column. -/
theorem pay1_apply (j : S1x128.Idx) : k0_pay1 (F := Ideal) j = 0 :=
  Ideal.ofBits_zero_f32

/-- A tile of 8 rows spread over the 1024 rows: at (r, j, q) it is the tile at (r, q). -/
theorem tile_apply (a : FVec Ideal S8x128 .f32) (r : Fin 8) (j : Fin 1024) (q : Fin 128) :
    broadcastTo S8x1024x128
        (shapeCast S8x1x128 (shapeCast S8x128 a shapeCasts_S8x128_S8x128) shapeCasts_S8x128_S8x1x128)
        broadcasts_S8x1x128_S8x1024x128 (ix3 r j q) = a (ix2 r q) := by
  refine (broadcastTo_apply _ _ (ix3 r j q) (ix3 r (0 : Fin 1) q) fun ax => ?_).trans ?_
  · match ax with
    | ⟨0, _⟩ => rfl
    | ⟨1, _⟩ => rfl
    | ⟨2, _⟩ => rfl
  · refine (shapeCast_apply _ _ (ix3 r (0 : Fin 1) q) (ix2 r q) ?_).trans ?_
    · rw [Shape.rowMajor_val_three, Shape.rowMajor_val_two]
      show r.val * 128 + q.val = (r.val * 1 + 0) * 128 + q.val
      rw [Nat.mul_one, Nat.add_zero]
    · exact congrFun (shapeCast_self a shapeCasts_S8x128_S8x128) (ix2 r q)

/-- A matrix of 1024 rows spread over the 8 tile rows: at (r, j, q) it is the matrix at (j, q). -/
theorem whole_apply (b : FVec Ideal S1024x128 .f32) (r : Fin 8) (j : Fin 1024) (q : Fin 128) :
    broadcastTo S8x1024x128
        (shapeCast S1x1024x128 (shapeCast S1024x128 b shapeCasts_S1024x128_S1024x128) shapeCasts_S1024x128_S1x1024x128)
        broadcasts_S1x1024x128_S8x1024x128 (ix3 r j q) = b (ix2 j q) := by
  refine (broadcastTo_apply _ _ (ix3 r j q) (ix3 (0 : Fin 1) j q) fun ax => ?_).trans ?_
  · match ax with
    | ⟨0, _⟩ => rfl
    | ⟨1, _⟩ => rfl
    | ⟨2, _⟩ => rfl
  · refine (shapeCast_ab_1ab_apply _ shapeCasts_S1024x128_S1x1024x128 (0 : Fin 1) j q).trans ?_
    exact congrFun (shapeCast_self b shapeCasts_S1024x128_S1024x128) (ix2 j q)

/-- The sum over the tile's 8 rows of an 8 x 1024 x 128 block, at (j, q). -/
theorem sumTile_apply (w : FVec Ideal S8x1024x128 .f32) (j : Fin 1024) (q : Fin 128) :
    multiReduction (F := Ideal) .add [0] S1024x128 w 0x00000000#32 reduces_S8x1024x128_S1024x128 (.inl rfl) rfl (ix2 j q)
      = ∑ r : Fin 8, w (ix3 r j q) :=
  (Ideal.multiReduction_add_single w 0x00000000#32 reduces_S8x1024x128_S1024x128 (.inl rfl) rfl (ix2 j q)).trans
    (Finset.sum_congr rfl fun r _ => congrArg w (funext fun ax => Fin.ext (by
      match ax with
      | ⟨0, _⟩ => rfl
      | ⟨1, _⟩ => rfl
      | ⟨2, _⟩ => rfl)))

/-- The sum over the 1024 rows of a 1024 x 128 matrix, at q. -/
theorem sumRows_apply (w : FVec Ideal S1024x128 .f32) (q : Fin 128) :
    multiReduction (F := Ideal) .add [0] S128 w 0x00000000#32 reduces_S1024x128_S128 (.inl rfl) rfl (ix1 q)
      = ∑ j : Fin 1024, w (ix2 j q) :=
  (Ideal.multiReduction_add_single w 0x00000000#32 reduces_S1024x128_S128 (.inl rfl) rfl (ix1 q)).trans
    (Finset.sum_congr rfl fun j _ => congrArg w (funext fun ax => Fin.ext (by
      match ax with
      | ⟨0, _⟩ => rfl
      | ⟨1, _⟩ => rfl)))

/-- The row the body stores at every grid point: the row read back plus, in column q, the sum over the 1024 rows j and
the tile's 8 rows r of the pair term of tile row r against row j. -/
theorem pay2_apply (v3 v5 : Vec Ideal S8x128 .f32) (v7 v9 : Vec Ideal S1024x128 .f32) (v36 : Vec Ideal S1x128 .f32)
    (q : Fin 128) :
    k0_pay2 v3 v5 v7 v9 v36 (ix2 0 q)
      = v36 (ix2 0 q) + ∑ j : Fin 1024, ∑ r : Fin 8,
          Ideal.tanh ((v3 (ix2 r q) - v7 (ix2 j q)) * Ideal.sign (v5 (ix2 r q) - v9 (ix2 j q))) := by
  unfold k0_pay2
  refine (addf_apply _ _ (ix2 0 q)).trans ?_
  refine congrArg₂ (· + ·) (congrFun (shapeCast_self v36 shapeCasts_S1x128_S1x128) (ix2 0 q)) ?_
  refine (shapeCast_a_1a_apply _ shapeCasts_S128_S1x128 (0 : Fin 1) q).trans ?_
  refine (sumRows_apply _ q).trans (Finset.sum_congr rfl fun j _ => ?_)
  refine (sumTile_apply _ j q).trans (Finset.sum_congr rfl fun r _ => ?_)
  show Ideal.tanh (_ * _) = _
  refine congrArg Ideal.tanh (congrArg₂ (· * ·) ?_ ?_)
  · refine (subf_apply _ _ (ix3 r j q)).trans ?_
    exact congrArg₂ (· - ·) (tile_apply v3 r j q) (whole_apply v7 r j q)
  · refine (Ideal.jnp_sign_eq_sign_f32 _).trans (congrArg Ideal.sign ?_)
    refine (subf_apply _ _ (ix3 r j q)).trans ?_
    exact congrArg₂ (· - ·) (tile_apply v5 r j q) (whole_apply v9 r j q)

end Cert.PayIdeal

end
-- ==== Proof.PairSumLaws.lean ====
/-
  The sum over all ordered pairs of rows, cut into tiles of eight rows.

  A row i of the 1024 is row 8 t + r of exactly one tile t of the 128 and one place r of the 8, so a sum over the rows is
  the sum over the tiles of the sums over their eight rows. Inside a tile the sum over the tile's rows and the sum
  over the second row j change places, sums of extended reals being commutative and associative with no side
  condition. The sum over the 128 tiles is then written over the first 128 natural numbers, the slab of a number
  beyond them being zero.
-/
import proofs.«170882_j29918742184749_2_alg».proof.Proof.PairSum

noncomputable section

open scoped BigOperators

namespace Cert.PairSum

open Idealize.ShloMosaic Idealize.ShloMosaic.ValueIdx

/-- Tile and place against row: (t, r) is row 8 t + r, and row i is place i mod 8 of tile i / 8. -/
def rowEquiv : Fin 128 × Fin 8 ≃ Fin 1024 where
  toFun p := row p.1 p.2
  invFun i := (⟨i.val / 8, by have := i.isLt; omega⟩, ⟨i.val % 8, Nat.mod_lt _ (by decide)⟩)
  left_inv p := by
    obtain ⟨t, r⟩ := p
    have ht := t.isLt
    have hr := r.isLt
    refine Prod.ext (Fin.ext ?_) (Fin.ext ?_)
    · show (8 * t.val + r.val) / 8 = t.val
      omega
    · show (8 * t.val + r.val) % 8 = r.val
      omega
  right_inv i := by
    refine Fin.ext ?_
    show 8 * (i.val / 8) + i.val % 8 = i.val
    omega

/-- A sum over the 1024 rows is the sum over the 128 tiles of the sums over their eight rows. -/
theorem sum_rows (f : Fin 1024 → EReal) : ∑ i : Fin 1024, f i = ∑ t : Fin 128, ∑ r : Fin 8, f (row t r) :=
  (Equiv.sum_comp rowEquiv f).symm.trans (Fintype.sum_prod_type' fun t r => f (row t r))

/-- The 128 slabs add up to the total. -/
theorem total_eq_slabs (P L : Mat) (q : Fin 128) : total P L q = ∑ t : Fin 128, slab P L t q := by
  unfold total slab
  refine (sum_rows fun i => ∑ j : Fin 1024, pair P L i j q).trans ?_
  exact Finset.sum_congr rfl fun t _ => Finset.sum_comm

/-- The slab of tile number t, zero beyond the 128 tiles. -/
def slabN (P L : Mat) (t : ℕ) (q : Fin 128) : EReal := if h : t < 128 then slab P L ⟨t, h⟩ q else 0

/-- Below 128 it is the tile's slab. -/
theorem slabN_of_lt (P L : Mat) (t : ℕ) (h : t < 128) (q : Fin 128) : slabN P L t q = slab P L ⟨t, h⟩ q :=
  dif_pos h

/-- The total is the sum of the slabs of the first 128 numbers. -/
theorem total_eq_range (P L : Mat) (q : Fin 128) : total P L q = ∑ t ∈ Finset.range 128, slabN P L t q := by
  refine (total_eq_slabs P L q).trans ?_
  refine Eq.trans ?_ (Fin.sum_univ_eq_sum_range (fun t => slabN P L t q) 128)
  exact Finset.sum_congr rfl fun t _ => (slabN_of_lt P L t.val t.isLt q).symm

end Cert.PairSum

end
-- ==== Proof.IdealRun.Value.lean ====
/-
  What the idealized kernel computes, read off its run.
  At every grid point the body stores, into the output row, the payload of the four input blocks and of what the row
  held (zeros at the first point); so after point n the row holds an n-fold iterate of the payload. Over the extended
  reals the payload at column q is "what the row held, plus the sum over all rows j and over the tile's eight rows r of
  tanh ((P r q - P j q) * sign (L r q - L j q))", which is the tile's slab of the pair sum; the eight rows of tile t are
  rows 8 t, ..., 8 t + 7 of P and L (the transposed arguments), and the whole-array windows read all of P and L. After
  the last point the row holds, in column q, the sum of the 128 slabs: the pair sum over all ordered pairs. The one
  write-back, after the last point, puts that row into the output array, from which the later host lines compute the
  result.
-/
import proofs.«170882_j29918742184749_2_alg».proof.Proof.IdealRun.Launch
import proofs.«170882_j29918742184749_2_alg».proof.Proof.PayIdeal
import proofs.«170882_j29918742184749_2_alg».proof.Proof.PairSumLaws
import Idealize.ShloMosaic.Lib.Pipeline.Value
import Idealize.ShloMosaic.Lib.ValueIdx

set_option maxRecDepth 16384

noncomputable section

namespace Cert.KernelIdeal.Tau

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx
open scoped BigOperators

theorem hz : (![0, 0] : Fin 2 → Nat) = fun _ => 0 := funext fun a => by fin_cases a <;> rfl

/-! ## What each case leaves in the output row -/

/-- A later point leaves the payload of the input blocks and of what the row held. -/
theorem outLater_eq (c : Dev nD) (i : grid0.Coords) (arg1 : Memref sig .tc .vmem S8x128 .f32) (harg1 : arg1.IsWhole) (arg2 : Memref sig .tc .vmem S8x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (hc0 : ¬cond0_0 i)
    (x0 x1 : Vec F S8x128 .f32) (x2 x3 : Vec F S1024x128 .f32) (xo4 : Vec F S1x128 .f32) :
    outLater c i arg1 harg1 arg2 harg2 arg3 harg3 arg4 harg4 arg5 harg5 hc0 x0 x1 x2 x3 xo4 = k0_pay2 x0 x1 x2 x3 xo4 := by
  unfold outLater
  rw [View.read_writes_eq_canon _ _ _ (cover_later c i arg1 harg1 arg2 harg2 arg3 harg3 arg4 harg4 arg5 harg5 hc0 x0 x1 x2 x3 xo4)]
  unfold runLater
  dsimp only
  rw [View.canon_unit_zero hz]
  simp only [View.readAt_eq_ld, harg1.read_unread, harg2.read_unread, harg3.read_unread, harg4.read_unread, harg5.read_unread, View.ld_unit_zero (S := S8x128) hz,
    View.ld_unit_zero (S := S1024x128) hz, View.ld_unit_zero (S := S1x128) hz]

/-- The first point stores zeros, reads them back, and leaves the payload of the input blocks and of the zeros. -/
theorem outFirst_eq (c : Dev nD) (i : grid0.Coords) (arg1 : Memref sig .tc .vmem S8x128 .f32) (harg1 : arg1.IsWhole) (arg2 : Memref sig .tc .vmem S8x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x128 .f32) (harg5 : arg5.IsWhole) (hc0 : cond0_0 i)
    (x0 x1 : Vec F S8x128 .f32) (x2 x3 : Vec F S1024x128 .f32) :
    outFirst c i arg1 harg1 arg2 harg2 arg3 harg3 arg4 harg4 arg5 harg5 hc0 x0 x1 x2 x3 = k0_pay2 x0 x1 x2 x3 (k0_pay1 (F := F)) := by
  unfold outFirst
  rw [View.read_writes_eq_canon _ _ _ (cover_first c i arg1 harg1 arg2 harg2 arg3 harg3 arg4 harg4 arg5 harg5 hc0 x0 x1 x2 x3)]
  unfold runFirst
  dsimp only
  sl_unfold_words
  rw [View.canon_cons_unit_zero (S := S1x128) hz, View.readCov_unit_zero (S := S1x128) _ hz]
  simp only [View.readAt_eq_ld, harg1.read_unread, harg2.read_unread, harg3.read_unread, harg4.read_unread, View.ld_unit_zero (S := S8x128) hz,
    View.ld_unit_zero (S := S1024x128) hz, View.ld_unit_zero (S := S1x128) hz]

/-! ## The accumulation in closed form -/

/-- The output row after point `n`: the payload iterated over the points' blocks, from zeros. -/
def acc (c : Dev nD) : (n : ℕ) → n < cfg0.N → Vec F S1x128 .f32
  | 0, h => k0_pay2 (iblk m c 0 ⟨0, h⟩) (iblk m c 1 ⟨0, h⟩) (iblk m c 2 ⟨0, h⟩) (iblk m c 3 ⟨0, h⟩) (k0_pay1 (F := F))
  | n + 1, h => k0_pay2 (iblk m c 0 ⟨n + 1, h⟩) (iblk m c 1 ⟨n + 1, h⟩) (iblk m c 2 ⟨n + 1, h⟩) (iblk m c 3 ⟨n + 1, h⟩) (acc c n (Nat.lt_of_succ_lt h))

/-- What the output row's buffer holds after point `n` is that iterate: by induction on the point. -/
theorem outsAt_eq (c : Dev nD) : ∀ (n : ℕ) (h : n < cfg0.N), outsAt m c n h = acc m c n h
  | 0, h => (outsAt_first m c ⟨0, h⟩ rfl).trans (outFirst_eq ..)
  | n + 1, h => by
    have hN : cfg0.N = 128 := N_0
    have hB : ¬(⟨n + 1, h⟩ : Fin cfg0.N).val % 128 = 0 := by dsimp only; omega
    rw [outsAt_later m c ⟨n + 1, h⟩ hB, outLater_eq]
    show k0_pay2 _ _ _ _ (outsAt m c n _) = k0_pay2 _ _ _ _ (acc m c n _)
    rw [outsAt_eq c n]

/-! ## The write-back -/

/-- The last grid point. -/
abbrev tLast : Fin cfg0.N := ⟨127, by rw [show cfg0.N = 128 from N_0]; decide⟩

/-- The output array after the run: the row after the last point (its one block is the array). -/
abbrev result (c : Dev nD) : Buf (Elt F) ((c : Thread nD τ).loc main_v2) := acc m c 127 (by rw [show cfg0.N = 128 from N_0]; decide)

/-- The one write-back, after the last point, writes it. -/
theorem flushed_eq (c : Dev nD) (t : Fin cfg0.N) (hf : (cfg0.win 4).flush t = true) :
    (dats m 0 c).flushed 4 t = ((cfg0.win 4).blk t).view.read (Elt F) (result m c) := by
  have hN : cfg0.N = 128 := N_0
  have h3 : t.val = 127 := by have := (flush0_4 t).mp hf; have := t.isLt; omega
  obtain rfl : t = tLast := Fin.ext h3
  show (cfg0.win 4).cut (grid0.coords tLast) ((dats m 0 c).after 4 tLast) = _
  rw [after0_4, outsAt_eq]
  have hz' : (fun a => win0_4.index tLast a * main_v2.ty.shape.size a) = fun _ => 0 := funext fun a => by fin_cases a <;> decide
  exact (Memref.read_access_unit_zero (Elt F) main_v2 hz' (fun a => by rw [congrFun hz' a]; simp) (result m c)).symm

/-- So the output array ends holding the row after the last point. -/
theorem final_out (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v2).slice (win0_4.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 128 from by decide +kernel]; omega⟩

end Cert.KernelIdeal.Tau

end
-- ==== Proof.IdealRun.ColSum.lean ====
/-
  The column sums the idealized kernel accumulates, over the extended reals.
  P and L are the two arrays the region finds (the transposed arguments). The tile windows' blocks at grid point t are
  rows 8 t, ..., 8 t + 7 of P and of L; the whole-array windows' blocks are P and L themselves. So the payload adds to
  the output row, in column q, the slab of tile t of the pair sum, and after the last point the row holds the sum of all
  128 slabs: the pair sum over all ordered pairs of rows.
-/
import proofs.«170882_j29918742184749_2_alg».proof.Proof.IdealRun.Value

set_option maxRecDepth 16384

noncomputable section

namespace Cert.KernelIdeal.Tau

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-- The two arrays the region finds: the transposed arguments. -/
abbrev P (c : Dev nD) : Cert.PairSum.Mat := V m c main_v0
abbrev L (c : Dev nD) : Cert.PairSum.Mat := V m c main_v1

/-! ## Where the blocks sit -/

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 0 :=
  (by decide +kernel : ∀ t : Fin grid0.N, win0_1.index t 0 = t.val ∧ win0_1.index t 1 = 0)
theorem idx_2 : ∀ t : Fin cfg0.N, win0_2.index t 0 = 0 ∧ win0_2.index t 1 = 0 :=
  (by decide +kernel : ∀ t : Fin grid0.N, win0_2.index t 0 = 0 ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)

/-- Row `r` of P's tile at point `t` is row `8 t + r` of P; -/
theorem tile_P (c : Dev nD) (t : Fin cfg0.N) (r : Fin 8) (q : Fin 128) (h : 8 * t.val + r.val < 1024) :
    (iblk m c 0 t : Vec Ideal S8x128 .f32) (ix2 r q) = P m c (ix2 ⟨8 * t.val + r.val, h⟩ q) := by
  unfold iblk
  rw [View.read_apply]
  show V m c main_v0 _ = V m c main_v0 _
  congr 1
  funext a
  apply Fin.ext
  match a with
  | ⟨0, _⟩ => show win0_0.index t 0 * 8 + 1 * r.val = 8 * t.val + r.val; rw [(idx_0 t).1]; omega
  | ⟨1, _⟩ => show win0_0.index t 1 * 128 + 1 * q.val = q.val; rw [(idx_0 t).2]; omega

/-- likewise for L; -/
theorem tile_L (c : Dev nD) (t : Fin cfg0.N) (r : Fin 8) (q : Fin 128) (h : 8 * t.val + r.val < 1024) :
    (iblk m c 1 t : Vec Ideal S8x128 .f32) (ix2 r q) = L m c (ix2 ⟨8 * t.val + r.val, h⟩ q) := by
  unfold iblk
  rw [View.read_apply]
  show V m c main_v1 _ = V m c main_v1 _
  congr 1
  funext a
  apply Fin.ext
  match a with
  | ⟨0, _⟩ => show win0_1.index t 0 * 8 + 1 * r.val = 8 * t.val + r.val; rw [(idx_1 t).1]; omega
  | ⟨1, _⟩ => show win0_1.index t 1 * 128 + 1 * q.val = q.val; rw [(idx_1 t).2]; omega

/-- the whole-array windows read P -/
theorem whole_P (c : Dev nD) (t : Fin cfg0.N) (r : Fin 1024) (q : Fin 128) :
    (iblk m c 2 t : Vec Ideal S1024x128 .f32) (ix2 r q) = P m c (ix2 r q) := by
  unfold iblk
  rw [View.read_apply]
  show V m c main_v0 _ = V m c main_v0 _
  congr 1
  funext a
  apply Fin.ext
  match a with
  | ⟨0, _⟩ => show win0_2.index t 0 * 1024 + 1 * r.val = r.val; rw [(idx_2 t).1]; omega
  | ⟨1, _⟩ => show win0_2.index t 1 * 128 + 1 * q.val = q.val; rw [(idx_2 t).2]; omega

/-- and L. -/
theorem whole_L (c : Dev nD) (t : Fin cfg0.N) (r : Fin 1024) (q : Fin 128) :
    (iblk m c 3 t : Vec Ideal S1024x128 .f32) (ix2 r q) = L m c (ix2 r q) := by
  unfold iblk
  rw [View.read_apply]
  show V m c main_v1 _ = V m c main_v1 _
  congr 1
  funext a
  apply Fin.ext
  match a with
  | ⟨0, _⟩ => show win0_3.index t 0 * 1024 + 1 * r.val = r.val; rw [(idx_3 t).1]; omega
  | ⟨1, _⟩ => show win0_3.index t 1 * 128 + 1 * q.val = q.val; rw [(idx_3 t).2]; omega

/-! ## The payload adds a slab -/

/-- One point's step in column `q`, over any input blocks that hold tile `t`'s rows of P and L and the whole of P and L,
    and any row `xo` found in the output buffer: the payload leaves what was found plus tile `t`'s slab of the pair sum. -/
theorem step_col (c : Dev nD) (x0 x1 : Vec Ideal S8x128 .f32) (x2 x3 : Vec Ideal S1024x128 .f32) (xo : Vec Ideal S1x128 .f32)
    (q : Fin 128) (s : EReal) (t : Fin 128)
    (h0 : ∀ r : Fin 8, x0 (ix2 r q) = P m c (ix2 (Cert.PairSum.row t r) q))
    (h1 : ∀ r : Fin 8, x1 (ix2 r q) = L m c (ix2 (Cert.PairSum.row t r) q))
    (h2 : ∀ j : Fin 1024, x2 (ix2 j q) = P m c (ix2 j q))
    (h3 : ∀ j : Fin 1024, x3 (ix2 j q) = L m c (ix2 j q))
    (ho : xo (ix2 0 q) = s) :
    k0_pay2 x0 x1 x2 x3 xo (ix2 0 q) = s + Cert.PairSum.slab (P m c) (L m c) t q := by
  rw [Cert.PayIdeal.pay2_apply, ho]
  congr 1
  unfold Cert.PairSum.slab Cert.PairSum.pair
  refine Finset.sum_congr rfl fun j _ => Finset.sum_congr rfl fun r _ => ?_
  rw [h0, h1, h2, h3]

/-- After point `n` the output row holds, in column `q`, the slabs of tiles 0 to `n`. -/
theorem acc_col (c : Dev nD) (q : Fin 128) : ∀ (n : ℕ) (h : n < cfg0.N),
    acc m c n h (ix2 0 q) = ∑ t ∈ Finset.range (n + 1), Cert.PairSum.slabN (P m c) (L m c) t q
  | 0, h => by
    rw [Finset.sum_range_one, Cert.PairSum.slabN_of_lt _ _ 0 (by decide)]
    exact (step_col m c (iblk m c 0 ⟨0, h⟩) (iblk m c 1 ⟨0, h⟩) (iblk m c 2 ⟨0, h⟩) (iblk m c 3 ⟨0, h⟩) (k0_pay1 (F := Ideal)) q 0 ⟨0, by decide⟩
      (fun r => tile_P m c ⟨0, h⟩ r q _) (fun r => tile_L m c ⟨0, h⟩ r q _) (fun j => whole_P m c ⟨0, h⟩ j q)
      (fun j => whole_L m c ⟨0, h⟩ j q) (Cert.PayIdeal.pay1_apply _)).trans (zero_add _)
  | n + 1, h => by
    have hN : cfg0.N = 128 := N_0
    have hlt : n + 1 < 128 := by omega
    rw [Finset.sum_range_succ _ (n + 1), Cert.PairSum.slabN_of_lt _ _ (n + 1) hlt, ← acc_col c q n (Nat.lt_of_succ_lt h)]
    exact step_col m c (iblk m c 0 ⟨n + 1, h⟩) (iblk m c 1 ⟨n + 1, h⟩) (iblk m c 2 ⟨n + 1, h⟩) (iblk m c 3 ⟨n + 1, h⟩)
      (acc m c n (Nat.lt_of_succ_lt h)) q _ ⟨n + 1, hlt⟩
      (fun r => tile_P m c ⟨n + 1, h⟩ r q _) (fun r => tile_L m c ⟨n + 1, h⟩ r q _) (fun j => whole_P m c ⟨n + 1, h⟩ j q)
      (fun j => whole_L m c ⟨n + 1, h⟩ j q) rfl

/-- So the output array ends, in column `q`, at the pair sum over all ordered pairs of rows. -/
theorem result_col (c : Dev nD) (q : Fin 128) : result m c (ix2 0 q) = Cert.PairSum.total (P m c) (L m c) q := by
  rw [Cert.PairSum.total_eq_range]
  exact acc_col m c q 127 _

end Cert.KernelIdeal.Tau

end
-- ==== Proof.IdealRun.Result.lean ====
/-
  The idealized kernel's result.
  The ten host lines after the region take the output array, a row of 128 column sums X, to
      1 - (0 + sum over q of X q / 1047552) / 128
  (the word 0x497FC000 is 1047552 = 1024 * 1023; both programs carry the same word, which is never evaluated). The
  output array holds the pair sums (ColSum), and the arrays P and L the region finds are the transposed arguments.
-/
import proofs.«170882_j29918742184749_2_alg».proof.Proof.IdealRun.ColSum
import Idealize.ShloMosaic.Lib.ValueLayout
import Idealize.ShloMosaic.Lib.StableHlo.Run

set_option maxRecDepth 16384

noncomputable section

namespace Cert.KernelIdeal.Tau

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

open Idealize.ShloMosaic.StableHlo

/-- The later lines, as a function of the row of 128 column sums. -/
def tail (X : (⟨S128, .f32⟩ : BufTy).Contents (Elt Ideal)) : (⟨S_, .f32⟩ : BufTy).Contents (Elt Ideal) :=
  subf (constant (F := Ideal) S_ .f32 0x3F800000#32)
    (Host.divf
      (Host.reduceAdd (F := Ideal)
        (Host.divf X (broadcastInDim S128 ![] bcast_S_S128 (constant (F := Ideal) S_ .f32 0x497FC000#32)))
        (constant (F := Ideal) S_ .f32 0x00000000#32) reducesTo_S128_S_d0 h_S_)
      (constant (F := Ideal) S_ .f32 0x43000000#32))

/-- The result buffer ends at the later lines' value of the pair sums. -/
theorem result_v8 (c : Dev nD) :
    Wfin m c (Proc.devRef .tc main_v8) = tail (fun i => Cert.PairSum.total (P m c) (L m c) (i 0)) := by
  show StableHlo.after hostOps1 (Wx m c) (Proc.devRef .tc main_v8) = _
  after_results
  show tail (shapeCast S128 (Wx m c (Proc.devRef .tc main_v2)) shapeCasts_S1x128_S128) = tail _
  congr 1
  funext i
  obtain ⟨q, rfl⟩ : ∃ q : Fin 128, i = ix1 q := ⟨i 0, eq_ix1 i⟩
  rw [Wx_out, final_out]
  exact (shapeCast_1a_a_apply (result m c) shapeCasts_S1x128_S128 q).trans (result_col m c q)

/-- The arrays the region finds are the transposed arguments. -/
theorem P_eq (c : Dev nD) :
    P m c = transpose S1024x128 [1, 0] (m ((c.tc : Thread nD τ).loc main_arg0)) transposes_S128x1024_S1024x128_1_0 := by
  show StableHlo.after hostOps0 (fun b => m (c, b)) (Proc.devRef .tc main_v0) = _
  after_results
theorem L_eq (c : Dev nD) :
    L m c = transpose S1024x128 [1, 0] (m ((c.tc : Thread nD τ).loc main_arg1)) transposes_S128x1024_S1024x128_1_0 := by
  show StableHlo.after hostOps0 (fun b => m (c, b)) (Proc.devRef .tc main_v1) = _
  after_results

/-- THE RUN, READ: every weakly fair execution of @main terminates with the result buffer at the later lines' value of
    the pair sums of the transposed arguments, and both arguments as launched. -/
theorem run : θ_run defs (onTc (τ := τ) (main (F := Ideal))) ⟨m, fun _ => 0, ρ⟩ (fun r => ∀ c : Dev nD,
      r.2.mem ((c.tc : Thread nD τ).loc main_v8) = tail (fun i => Cert.PairSum.total
          (transpose S1024x128 [1, 0] (m ((c.tc : Thread nD τ).loc main_arg0)) transposes_S128x1024_S1024x128_1_0)
          (transpose S1024x128 [1, 0] (m ((c.tc : Thread nD τ).loc main_arg1)) transposes_S128x1024_S1024x128_1_0) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c main_v8 (by decide)).trans (by rw [result_v8, P_eq, L_eq]),
       (h c main_arg0 (by decide)).trans (Wfin_kept m c main_arg0 (by decide) keeps0_arg0 keeps1_arg0),
       (h c main_arg1 (by decide)).trans (Wfin_kept m c main_arg1 (by decide) keeps0_arg1 keeps1_arg1)⟩)
    (run_main m ρ)

end Cert.KernelIdeal.Tau

end
-- ==== Proof.LibSumIdx3.lean ====
/-
  A sum over a rank-3 index set as the triple sum over its coordinates.
  The index set of a shape [n0, n1, n2] is in bijection with the product of the three coordinate ranges, so in any
  commutative additive monoid the sum of f over the indices is the sum over a, then b, then c of f at (a, b, c).
  Program-free; the rank-2 counterpart is the library's `ValueIdx.sum_idx2`. Typical use: a host sum over two axes of a
  rank-3 array, read at one entry, once its filter "the index drops to this entry" has been moved inside.
-/
import Idealize.ShloMosaic.Lib.ValueIdx

noncomputable section

open scoped BigOperators

namespace Cert.LibSumIdx3

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibSumIdx3

end
-- ==== Proof.RefSide.lean ====
/-
  The reference's column sums.

  With P the transpose of the first argument and L the transpose of the second (1024 rows, 128 columns), the reference
  spreads both over a 1024 x 1024 x 128 array, takes tanh ((P i q - P j q) * sign (L i q - L j q)) at (i, j, q), and
  adds over the first two axes, from the zero word, into 128 entries. Read at the entry q that is the sum over all
  ordered pairs of rows (i, j) of the pair's term: PairSum's total P L q. The sum over the indices of the 3-axis array that
  drop to q is taken through the product of the three coordinate ranges; the extended reals add commutatively, so no
  finiteness is asked.
-/
import proofs.«170882_j29918742184749_2_alg».proof.Proof.Gen.ReferenceIdeal.Read
import proofs.«170882_j29918742184749_2_alg».proof.Proof.PairSum
import proofs.«170882_j29918742184749_2_alg».proof.Proof.LibSumIdx3
import Idealize.ShloMosaic.Lib.IdealHost

noncomputable section

open scoped BigOperators

namespace Cert.RefSide

open Cert.ReferenceIdeal Cert.ReferenceIdeal.Gen Cert.ReferenceIdeal.Read Idealize.ShloMosaic Idealize.ShloMosaic.ValueIdx Cert.LibSumIdx3

/-- An argument array: 128 rows, 1024 columns of extended reals. -/
abbrev Arr : Type := (⟨S128x1024, .f32⟩ : BufTy).Contents (Elt Ideal)

/-- Dropping the two row coordinates of (a, b, c) leaves the column c. -/
theorem drop_ix3 (a b : Fin 1024) (c : Fin 128) :
    reducesTo_S1024x1024x128_S128_d0_1.drop (ix3 a b c) = ix1 c := by
  funext d
  match d with
  | ⟨0, _⟩ =>
    exact Fin.ext (Shape.ReducesTo.drop_apply_val_of_eq reducesTo_S1024x1024x128_S128_d0_1 (ix3 a b c) (0 : Fin 1) (2 : Fin 3))

/-- Two rank-1 indices agree exactly when their coordinates do. -/
theorem ix1_eq_iff (c q : Fin 128) : (ix1 c = ix1 q) ↔ c = q :=
  ⟨fun h => congrFun h (0 : Fin 1), fun h => congrArg ix1 h⟩

/-- The summand at (a, b, q) is the term of the ordered pair of rows (a, b) in column q. -/
theorem summand (x y : Arr) (a b : Fin 1024) (q : Fin 128) :
    val_main_v14 (F := Ideal) x y (ix3 a b q)
      = Cert.PairSum.pair (transpose S1024x128 [1, 0] x transposes_S128x1024_S1024x128_1_0)
          (transpose S1024x128 [1, 0] y transposes_S128x1024_S1024x128_1_0) a b q := by
  have e1 : idx_main_v2 (idx_main_v4 (ix3 a b q)) = ix2 a q := by
    funext d; match d with | ⟨0, _⟩ => rfl | ⟨1, _⟩ => rfl
  have e2 : idx_main_v3 (idx_main_v5 (ix3 a b q)) = ix2 b q := by
    funext d; match d with | ⟨0, _⟩ => rfl | ⟨1, _⟩ => rfl
  have e3 : idx_main_v7 (idx_main_v9 (ix3 a b q)) = ix2 a q := by
    funext d; match d with | ⟨0, _⟩ => rfl | ⟨1, _⟩ => rfl
  have e4 : idx_main_v8 (idx_main_v10 (ix3 a b q)) = ix2 b q := by
    funext d; match d with | ⟨0, _⟩ => rfl | ⟨1, _⟩ => rfl
  rw [val_main_v14_apply, val_main_v13_apply, val_main_v6_apply, val_main_v12_apply, val_main_v11_apply,
    val_main_v4_apply, val_main_v5_apply, val_main_v9_apply, val_main_v10_apply,
    val_main_v2_apply, val_main_v3_apply, val_main_v7_apply, val_main_v8_apply, e1, e2, e3, e4]
  rfl

/-- The reference's sum over the two row axes, at an entry, is the sum over all ordered pairs of rows. -/
theorem colsum_eq (x y : Arr) :
    Host.reduceAdd (F := Ideal) (Host.tanh (mulf (subf (broadcastInDim S1024x1024x128 ![0, 1, 2] bcast_S1024x1x128_S1024x1024x128_0_1_2 (broadcastInDim S1024x1x128 ![0, 2] bcast_S1024x128_S1024x1x128_0_2 (transpose S1024x128 [1, 0] (x) transposes_S128x1024_S1024x128_1_0))) (broadcastInDim S1024x1024x128 ![0, 1, 2] bcast_S1x1024x128_S1024x1024x128_0_1_2 (broadcastInDim S1x1024x128 ![1, 2] bcast_S1024x128_S1x1024x128_1_2 (transpose S1024x128 [1, 0] (x) transposes_S128x1024_S1024x128_1_0)))) (Host.sign (subf (broadcastInDim S1024x1024x128 ![0, 1, 2] bcast_S1024x1x128_S1024x1024x128_0_1_2 (broadcastInDim S1024x1x128 ![0, 2] bcast_S1024x128_S1024x1x128_0_2 (transpose S1024x128 [1, 0] (y) transposes_S128x1024_S1024x128_1_0))) (broadcastInDim S1024x1024x128 ![0, 1, 2] bcast_S1x1024x128_S1024x1024x128_0_1_2 (broadcastInDim S1x1024x128 ![1, 2] bcast_S1024x128_S1x1024x128_1_2 (transpose S1024x128 [1, 0] (y) transposes_S128x1024_S1024x128_1_0))))))) (constant (F := Ideal) S_ .f32 0x00000000#32) reducesTo_S1024x1024x128_S128_d0_1 h_S_
      = fun i => Cert.PairSum.total (transpose S1024x128 [1, 0] x transposes_S128x1024_S1024x128_1_0)
          (transpose S1024x128 [1, 0] y transposes_S128x1024_S1024x128_1_0) (i 0) := by
  show val_main_v15 (F := Ideal) x y = _
  funext i
  obtain ⟨q, rfl⟩ : ∃ q, i = ix1 q := ⟨i 0, eq_ix1 i⟩
  show Ideal.hostReduceAdd reducesTo_S1024x1024x128_S128_d0_1 (val_main_v14 (F := Ideal) x y)
      (Ideal.ofBits .f32 0x00000000#32) (ix1 q) = _
  unfold Ideal.hostReduceAdd
  rw [Ideal.ofBits_zero_f32, zero_add, Finset.sum_filter, sum_idx3]
  unfold Cert.PairSum.total
  refine Finset.sum_congr rfl fun a _ => Finset.sum_congr rfl fun b _ => ?_
  simp only [drop_ix3, ix1_eq_iff, Finset.sum_ite_eq', Finset.mem_univ, if_true]
  exact summand x y a b q

end Cert.RefSide

end
-- ==== Proof.lean ====
/-
  A pairwise ranking sum, per column, of two 128 x 1024 arrays pred and y.
  With P = pred transposed and L = y transposed (1024 rows, 128 columns), both programs compute
      1 - (sum over the 128 columns q of S q / (1024 * 1023)) / 128,
      S q = sum over all ordered pairs of rows (i, j) of tanh ((P i q - P j q) * sign (L i q - L j q)).
  The reference spreads P and L over a 1024 x 1024 x 128 array and adds over the first two axes. The kernel walks the
  rows i in 128 tiles of eight: at each grid point it adds, to a 1 x 128 output row it zeroed at the first point, the
  tile's part of S (over all j, then over the tile's eight rows), and writes the row back after the last point; the host
  lines after it are the reference's last lines. Over the extended reals the two are the same sum in two groupings —
  addition there is commutative and associative with no side condition, the two sign functions agree at every extended
  real (zero and the infinities included), and the tanh is one function — so the inputs' finiteness is never used.
  The kernel's region has two windows on P and two on L: each pair shares its array, held by halves while the region
  runs (Proof/IdealRun, and Proof/BitsRun for the program as printed at the word level). The ideal pass's one rewrite
  (the float "1.0 with the sign bit of d" read as "-1 if d < 0 else 1") is its rule's statement.
-/
import proofs.«170882_j29918742184749_2_alg».proof.Defs
import proofs.«170882_j29918742184749_2_alg».proof.Proof.Gen.Kernel
import proofs.«170882_j29918742184749_2_alg».proof.Proof.Gen.Kernel.Skeleton
import proofs.«170882_j29918742184749_2_alg».proof.Proof.Gen.Kernel.Launch
import proofs.«170882_j29918742184749_2_alg».proof.Proof.Gen.Kernel.Points
import proofs.«170882_j29918742184749_2_alg».proof.Proof.Gen.KernelIdeal
import proofs.«170882_j29918742184749_2_alg».proof.Proof.Gen.KernelIdeal.Skeleton
import proofs.«170882_j29918742184749_2_alg».proof.Proof.Gen.KernelIdeal.Launch
import proofs.«170882_j29918742184749_2_alg».proof.Proof.Gen.KernelIdeal.Points
import proofs.«170882_j29918742184749_2_alg».proof.Proof.Gen.ReferenceIdeal
import proofs.«170882_j29918742184749_2_alg».proof.Proof.Gen.Pre_finite_inputs
import proofs.«170882_j29918742184749_2_alg».proof.Proof.Gen.ReferenceIdeal.Run
import proofs.«170882_j29918742184749_2_alg».proof.Proof.Gen.ReferenceIdeal.Read
import proofs.«170882_j29918742184749_2_alg».proof.Proof.BitsRun.Launch
import proofs.«170882_j29918742184749_2_alg».proof.Proof.IdealRun.Result
import proofs.«170882_j29918742184749_2_alg».proof.Proof.RefSide
import Idealize.ShloMosaic.Adequacy
import Idealize.ShloMosaic.Init

noncomputable section

namespace Cert.Proof

open Idealize.ShloMosaic Idealize.ShloMosaic.TcCoe Idealize.SL.Sem

/-- The program as printed runs to its end, faults nowhere and leaves both arguments as launched. -/
theorem frame_k : Cert.frame_Kernel (hKernel := Cert.Kernel.Gen.facts) (hPre_finite_inputs := Cert.Pre_finite_inputs.Gen.facts) :=
  fun m ρ _ => Cert.Kernel.Tau.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Tau.frame m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ledger's one entry: "1.0 with d's sign bit" is "-1 if d < 0 else 1" over the extended reals. -/
theorem preserves : Cert.preserves_Kernel_KernelIdeal :=
  IdealRules.sign_bit.statement Cert.KernelIdeal.S8x1024x128 .f32

/-- Over the extended reals both programs end at the later lines' value of the pair sums of the transposed arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Tau.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.RefSide.colsum_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
